-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S50000x128 : Shape := ⟨2, ![50000, 128]⟩
abbrev S500000 : Shape := ⟨1, ![500000]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_v33

def fn {F : FTy → Type} [FloatOps F] (main_arg0 : FVec F S500000x128 .f32) (main_arg1 : FVec F S50000x128 .f32) (main_arg2 : IVec S500000 32) (main_arg3 : IVec S500000 32) (main_arg4 : FVec F S384x128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S500000x128 : Shape := ⟨2, ![500000, 128]⟩
abbrev S50000x128 : Shape := ⟨2, ![50000, 128]⟩
abbrev S500000 : Shape := ⟨1, ![500000]⟩
abbrev S384x128 : Shape := ⟨2, ![384, 128]⟩
abbrev S128 : Shape := ⟨1, ![128]⟩
abbrev S128x128 : Shape := ⟨2, ![128, 128]⟩
abbrev S_ : Shape := ⟨0, ![]⟩
abbrev S500000x1 : Shape := ⟨2, ![500000, 1]⟩
abbrev S4096x128 : Shape := ⟨2, ![4096, 128]⟩
abbrev S1x128 : Shape := ⟨2, ![1, 128]⟩
abbrev S4096 : Shape := ⟨1, ![4096]⟩
abbrev S4096x1 : Shape := ⟨2, ![4096, 1]⟩

abbrev nBuf : Space → Nat
  | .hbm => 33
  | .vmem => 16
  | .smem => 0
  | _ => 0

abbrev bufTy : (tb : Table) → Fin (tcTables nBuf tb) → BufTy
  | .hbm, ⟨0, _⟩ => ⟨S500000x128, .f32⟩
  | .hbm, ⟨1, _⟩ => ⟨S50000x128, .f32⟩
  | .hbm, ⟨2, _⟩ => ⟨S500000, .i32⟩
  | .hbm, ⟨3, _⟩ => ⟨S500000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S50000x128, .bf16⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x128, .bf16⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .bf16⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S500000x128, .f32⟩
  | .local _ .vmem, ⟨0, _⟩ => ⟨S4096x128, .f32⟩
  | .local _ .vmem, ⟨1, _⟩ => ⟨S4096x128, .f32⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S4096x128, .f32⟩
  | .local _ .vmem, ⟨15, _⟩ => ⟨S4096x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  reduces_S4096x128_S4096 : S4096x128.Reduces [1] S4096
  shapeCasts_S4096_S4096x1 : S4096.ShapeCasts S4096x1
  broadcasts_S4096x1_S4096x128 : S4096x1.Broadcasts S4096x128
  gather_S50000x128_S500000x1_S500000x128_1_0_n_n_0_1_1128_wf : GatherDims.WF S50000x128 S500000x1 S500000x128 [1] [0] [] [0] [] 1 ![1, 128]
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x128.size a < S500000x128.size a
  hwx0_0 : ∀ i : grid0.Coords, EltTy.bits .f32 = 32 ∨ (Rect.unit (s := S500000x128) (fun a => cc0_transform_0 i a * S4096x128.size a) (fun a => (Pipeline.Clip.of (cc0_transform_0 i a) (S4096x128.size a) (S500000x128.size a)).extent (S4096x128.size a)) fun a => Pipeline.Clip.inb (Pipeline.Clip.ok_of (hstart0_0 i a))).WholeWords (EltTy.packing .f32)
  hwxs0_0 : ∀ i : grid0.Coords, EltTy.bits .f32 = 32 ∨ (Rect.unit (s := S4096x128) (fun _ => 0) (fun a => (Pipeline.Clip.of (cc0_transform_0 i a) (S4096x128.size a) (S500000x128.size a)).extent (S4096x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x128.size a < S500000x128.size a
  hwx0_1 : ∀ i : grid0.Coords, EltTy.bits .bf16 = 32 ∨ (Rect.unit (s := S500000x128) (fun a => cc0_transform_1 i a * S4096x128.size a) (fun a => (Pipeline.Clip.of (cc0_transform_1 i a) (S4096x128.size a) (S500000x128.size a)).extent (S4096x128.size a)) fun a => Pipeline.Clip.inb (Pipeline.Clip.ok_of (hstart0_1 i a))).WholeWords (EltTy.packing .bf16)
  hwxs0_1 : ∀ i : grid0.Coords, EltTy.bits .bf16 = 32 ∨ (Rect.unit (s := S4096x128) (fun _ => 0) (fun a => (Pipeline.Clip.of (cc0_transform_1 i a) (S4096x128.size a) (S500000x128.size a)).extent (S4096x128.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x128.size a < S500000x128.size a
  hwx0_2 : ∀ i : grid0.Coords, EltTy.bits .bf16 = 32 ∨ (Rect.unit (s := S500000x128) (fun a => cc0_transform_2 i a * S4096x128.size a) (fun a => (Pipeline.Clip.of (cc0_transform_2 i a) (S4096x128.size a) (S500000x128.size a)).extent (S4096x128.size a)) fun a => Pipeline.Clip.inb (Pipeline.Clip.ok_of (hstart0_2 i a))).WholeWords (EltTy.packing .bf16)
  hwxs0_2 : ∀ i : grid0.Coords, EltTy.bits .bf16 = 32 ∨ (Rect.unit (s := S4096x128) (fun _ => 0) (fun a => (Pipeline.Clip.of (cc0_transform_2 i a) (S4096x128.size a) (S500000x128.size a)).extent (S4096x128.size a)) fun a => (Nat.zero_add _).trans_le (Pipeline.Clip.extent_le (Pipeline.Clip.ok_of (hstart0_2 i a)))).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hstart0_11 : ∀ (i : grid0.Coords) a, cc0_transform_11 i a * S4096x128.size a < S500000x128.size a
  hwx0_11 : ∀ i : grid0.Coords, EltTy.bits .f32 = 32 ∨ (Rect.unit (s := S500000x128) (fun a => cc0_transform_11 i a * S4096x128.size a) (fun a => (Pipeline.Clip.of (cc0_transform_11 i a) (S4096x128.size a) (S500000x128.size a)).extent (S4096x128.size a)) fun a => Pipeline.Clip.inb (Pipeline.Clip.ok_of (hstart0_11 i a))).WholeWords (EltTy.packing .f32)
  hwxs0_11 : ∀ i : grid0.Coords, EltTy.bits .f32 = 32 ∨ (Rect.unit (s := S4096x128) (fun _ => 0) (fun a => (Pipeline.Clip.of (cc0_transform_11 i a) (S4096x128.size a) (S500000x128.size a)).extent (S4096x128.size a)) fun a => (Nat.zero_add _).trans_le (Pipeline.Clip.extent_le (Pipeline.Clip.ok_of (hstart0_11 i a)))).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpecClip (Memref.whole main_arg0) S4096x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v7) S4096x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v14) S4096x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpecClip (Memref.whole main_v18) S4096x128.size cc0_transform_11 reads0_11 true false 2 stage0_11 sem0_11
    hrank0 hreads0_11 hstart0_11 nbuf0_11 (Memref.isWhole_whole _) hwx0_11 hwxs0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S500000x128 : Shape := ⟨2, ![500000, 128]⟩
abbrev S50000x128 : Shape := ⟨2, ![50000, 128]⟩
abbrev S500000 : Shape := ⟨1, ![500000]⟩
abbrev S384x128 : Shape := ⟨2, ![384, 128]⟩
abbrev S128 : Shape := ⟨1, ![128]⟩
abbrev S128x128 : Shape := ⟨2, ![128, 128]⟩
abbrev S_ : Shape := ⟨0, ![]⟩
abbrev S500000x1 : Shape := ⟨2, ![500000, 1]⟩
abbrev S500000x384 : Shape := ⟨2, ![500000, 384]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S50000x128, .f32⟩
  | .hbm, ⟨2, _⟩ => ⟨S500000, .i32⟩
  | .hbm, ⟨3, _⟩ => ⟨S500000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x128, .f32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000x128, .f32⟩
  | .hbm, ⟨28, _⟩ => ⟨S500000x384, .f32⟩
  | .hbm, ⟨29, _⟩ => ⟨S500000x128, .f32⟩
  | .hbm, ⟨30, _⟩ => ⟨S1x128, .f32⟩
  | .hbm, ⟨31, _⟩ => ⟨S500000x128, .f32⟩
  | .hbm, ⟨32, _⟩ => ⟨S500000x128, .f32⟩
  | .hbm, ⟨33, _⟩ => ⟨S500000x128, .f32⟩
  | .hbm, ⟨34, _⟩ => ⟨S500000x128, .f32⟩
  | .hbm, ⟨35, _⟩ => ⟨S_, .f32⟩
  | .hbm, ⟨36, _⟩ => ⟨S500000x128, .f32⟩
  | .hbm, ⟨37, _⟩ => ⟨S500000x128, .f32⟩
  | .hbm, ⟨38, _⟩ => ⟨S_, .f32⟩
  | .hbm, ⟨39, _⟩ => ⟨S500000x128, .f32⟩
  | .hbm, ⟨40, _⟩ => ⟨S500000x128, .f32⟩
  | .hbm, ⟨41, _⟩ => ⟨S500000x128, .f32⟩
  | .hbm, ⟨42, _⟩ => ⟨S500000x128, .f32⟩
  | .hbm, ⟨43, _⟩ => ⟨S1x128, .f32⟩
  | .hbm, ⟨44, _⟩ => ⟨S500000x128, .f32⟩
  | .hbm, ⟨45, _⟩ => ⟨S500000x128, .f32⟩
  | .hbm, ⟨46, _⟩ => ⟨S_, .f32⟩
  | .hbm, ⟨47, _⟩ => ⟨S500000, .f32⟩
  | .hbm, ⟨48, _⟩ => ⟨S500000x1, .f32⟩
  | .hbm, ⟨49, _⟩ => ⟨S_, .f32⟩
  | .hbm, ⟨50, _⟩ => ⟨S500000x1, .f32⟩
  | .hbm, ⟨51, _⟩ => ⟨S500000x1, .f32⟩
  | .hbm, ⟨52, _⟩ => ⟨S500000x128, .f32⟩
  | .hbm, ⟨53, _⟩ => ⟨S500000x128, .f32⟩
  | .hbm, ⟨54, _⟩ => ⟨S500000x128, .f32⟩
  | .hbm, ⟨55, _⟩ => ⟨S_, .f32⟩
  | .hbm, ⟨56, _⟩ => ⟨S500000, .f32⟩
  | .hbm, ⟨57, _⟩ => ⟨S500000x1, .f32⟩
  | .hbm, ⟨58, _⟩ => ⟨S_, .f32⟩
  | .hbm, ⟨59, _⟩ => ⟨S500000x1, .f32⟩
  | .hbm, ⟨60, _⟩ => ⟨S500000x1, .f32⟩
  | .hbm, ⟨61, _⟩ => ⟨S500000x128, .f32⟩
  | .hbm, ⟨62, _⟩ => ⟨S500000x128, .f32⟩
  | .hbm, ⟨63, _⟩ => ⟨S_, .f32⟩
  | .hbm, ⟨64, _⟩ => ⟨S500000x1, .f32⟩
  | .hbm, ⟨65, _⟩ => ⟨S500000x1, .f32⟩
  | .hbm, ⟨66, _⟩ => ⟨S500000x1, .f32⟩
  | .hbm, ⟨67, _⟩ => ⟨S500000x128, .f32⟩
  | .hbm, ⟨68, _⟩ => ⟨S500000x128, .f32⟩
  | .hbm, ⟨69, _⟩ => ⟨S1x128, .f32⟩
  | .hbm, ⟨70, _⟩ => ⟨S500000x128, .f32⟩
  | .hbm, ⟨71, _⟩ => ⟨S500000x128, .f32⟩
  | .hbm, ⟨72, _⟩ => ⟨S1x128, .f32⟩
  | .hbm, ⟨73, _⟩ => ⟨S500000x128, .f32⟩
  | .hbm, ⟨74, _⟩ => ⟨S500000x128, .f32⟩
  | .hbm, ⟨75, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  reducesTo_S500000x128_S500000_d1 : S500000x128.ReducesTo [1] S500000
  h_S_ : 0 < S_.numel
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  gather_S50000x128_S500000x1_S500000x128_1_0_n_n_0_1_1128_wf : GatherDims.WF S50000x128 S500000x1 S500000x128 [1] [0] [] [0] [] 1 ![1, 128]
  dot_S500000x384_S384x128_S500000x128_1_0_0_1_n_n_wf : DotDims.WF S500000x384 S384x128 S500000x128 [1] [0] [0] [1] [] []
  dot_S500000x128_S128x128_S500000x128_1_0_0_1_n_n_wf : DotDims.WF S500000x128 S128x128 S500000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf

class Facts : Prop extends Facts₀ where

variable [Facts]
-- ==== Proof.BodyBits.lean ====
/-
  The body of the edge-update kernel, run once on whole staging buffers.

  The body reads eleven buffers whole — the tile of edge features, the two tiles of gathered node rows, the three
  bands of the first weight matrix, its bias, the second weight matrix, its bias, and LayerNorm's scale and shift —,
  computes one tile of new edge features from them, and overwrites the twelfth buffer with it, whole. Nothing else
  is touched: the eleven inputs end as they were. The value stored is a pure function of the values loaded
  (`stored`), whatever the float instance; what that function IS, row by row, is read elsewhere and only at the
  ideal instance.
-/
import proofs.«139852_j84104049590405_2_alg».proof.Proof.Gen.Kernel.Frame
import proofs.«139852_j84104049590405_2_alg».proof.Proof.Gen.Kernel.Skeleton
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The three rectangles the body reads and writes through: each a whole buffer -/

abbrev rA : Rect S4096x128 := Rect.unit (s := S4096x128) ![0, 0] S4096x128.size inb_S4096x128_S4096x128_0_0
abbrev rW : Rect S128x128 := Rect.unit (s := S128x128) ![0, 0] S128x128.size inb_S128x128_S128x128_0_0
abbrev rV : Rect S128 := Rect.unit (s := S128) ![0] S128.size inb_S128_S128_0

/-- The tile the body stores, as a function of the eleven values it loaded. -/
def stored (x0 : Vec F S4096x128 .f32) (x1 : Vec F S4096x128 .bf16) (x2 : Vec F S4096x128 .bf16) (x3 : Vec F S128x128 .f32) (x4 : Vec F S128x128 .f32) (x5 : Vec F S128x128 .f32) (x6 : Vec F S128 .f32) (x7 : Vec F S128x128 .f32) (x8 : Vec F S128 .f32) (x9 : Vec F S128 .f32) (x10 : Vec F S128 .f32) : Vec F S4096x128 .f32 :=
  k0_pay1 x0 (k0_pay2 x0 x1 x2 x3 x4 x5 x6 x7 x8) (k0_pay3 x0 x1 x2 x3 x4 x5 x6 x7 x8) (k0_pay4 (F := F)) x9 x10

/-- What the output buffer holds after the body: its one store, through the whole-buffer rectangle, of the tile
    computed from the loads (each load through its whole-buffer rectangle). -/
def outBuf (x0 : Vec F S4096x128 .f32) (x1 : Vec F S4096x128 .bf16) (x2 : Vec F S4096x128 .bf16) (x3 : Vec F S128x128 .f32) (x4 : Vec F S128x128 .f32) (x5 : Vec F S128x128 .f32) (x6 : Vec F S128 .f32) (x7 : Vec F S128x128 .f32) (x8 : Vec F S128 .f32) (x9 : Vec F S128 .f32) (x10 : Vec F S128 .f32) : Vec F S4096x128 .f32 :=
  View.canon [⟨rA, k0_pay1 (View.ld x0 rA) (k0_pay2 (View.ld x0 rA) (View.ld x1 rA) (View.ld x2 rA) (View.ld x3 rW) (View.ld x4 rW) (View.ld x5 rW) (View.ld x6 rV) (View.ld x7 rW) (View.ld x8 rV)) (k0_pay3 (View.ld x0 rA) (View.ld x1 rA) (View.ld x2 rA) (View.ld x3 rW) (View.ld x4 rW) (View.ld x5 rW) (View.ld x6 rV) (View.ld x7 rW) (View.ld x8 rV)) (k0_pay4 (F := F)) (View.ld x9 rV) (View.ld x10 rV)⟩]

/-- The one store covers the buffer. -/
theorem cover_out (p0 : Vec F S4096x128 .f32) (y : S4096x128.Idx) :
    ∃ pc ∈ ([⟨rA, p0⟩] : List (View.Piece (Elt F) S4096x128 .f32)), y ∈ pc.1.set :=
  View.cover_of_tiled [⟨rA, p0⟩] S4096x128.size (by rfl) y

set_option maxHeartbeats 2000000 in
/-- The body's triple: from the eleven input buffers at read contents and the output buffer at anything, it runs
    to the eleven inputs unchanged and the output at `outBuf` of them. -/
theorem sound_kernel (c : Dev nD) (E : Set ℕ) (i : grid0.Coords) (arg1 : Memref sig .tc .vmem S4096x128 .f32) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128 .f32) (harg10 : arg10.IsWhole) (arg11 : Memref sig .tc .vmem S128 .f32) (harg11 : arg11.IsWhole) (arg12 : Memref sig .tc .vmem S4096x128 .f32) (harg12 : arg12.IsWhole)
    (x0 : Vec F S4096x128 .f32) (x1 : Vec F S4096x128 .bf16) (x2 : Vec F S4096x128 .bf16) (x3 : Vec F S128x128 .f32) (x4 : Vec F S128x128 .f32) (x5 : Vec F S128x128 .f32) (x6 : Vec F S128 .f32) (x7 : Vec F S128x128 .f32) (x8 : Vec F S128 .f32) (x9 : Vec F S128 .f32) (x10 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outBuf x0 x1 x2 x3 x4 x5 x6 x7 x8 x9 x10)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover_out _)

end Cert.Kernel.Hand

end
-- ==== Proof.DataBits.lean ====
/-
  The proof data of the pipelined edge update, and what the body finds in each staging buffer.

  The grid has 123 points; point `t` works on edges 4096·t … 4096·t + 4095. The array has 500000 rows, so the last
  point's tile overhangs it by 3808 rows: there the fetches of the three per-edge inputs land only the 288 rows
  inside the array and leave the rest of the buffer holding words nothing names, and the write-back of the result
  writes only those 288 rows. So for those four windows everything is stated on the rows inside the array only
  (`Window.fill` / `Window.cut`). The eight parameter windows (weights, biases, scale, shift) are fetched once, at the
  first point, and found unchanged at every later one.
-/
import proofs.«139852_j84104049590405_2_alg».proof.Proof.BodyBits
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data on core `c`: the arrays as the region finds them; after the body, each per-edge input buffer at
    its block on the rows inside the array (zero past them: a word the proof picks and nothing reads), each parameter
    buffer at its block, and the result's buffer at `o c t` — the one thing the two uses of this definition choose
    differently. -/
def dats (o : Dev nD → Fin cfg0.N → Vec F S4096x128 .f32) (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .bf16 0#16) (iblk m c 1 t)
    | ⟨2, _⟩ => win0_2.fill (grid0.coords t) (fun _ => Scalar.ofBits .bf16 0#16) (iblk m c 2 t)
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => o c t
  Φ _ := Pipeline.ΦA spec0 c
  q _ := fullShare
  owed _ := 0

variable (o : Dev nD → Fin cfg0.N → Vec F S4096x128 .f32)

theorem A_eq (c : Dev nD) (w : Fin cfg0.W) : (dats m o 0 c).A w = V m c (Pipeline.arrRef spec0 w) := by
  dsimp only [dats]

theorem after_0 (c : Dev nD) (t : Fin cfg0.N) : (dats m o 0 c).after 0 t = win0_0.fill (grid0.coords t) (fun _ => Scalar.ofBits .f32 0#32) (iblk m c 0 t) := by dsimp only [dats]
theorem after_1 (c : Dev nD) (t : Fin cfg0.N) : (dats m o 0 c).after 1 t = win0_1.fill (grid0.coords t) (fun _ => Scalar.ofBits .bf16 0#16) (iblk m c 1 t) := by dsimp only [dats]
theorem after_2 (c : Dev nD) (t : Fin cfg0.N) : (dats m o 0 c).after 2 t = win0_2.fill (grid0.coords t) (fun _ => Scalar.ofBits .bf16 0#16) (iblk m c 2 t) := by dsimp only [dats]
theorem after_3 (c : Dev nD) (t : Fin cfg0.N) : (dats m o 0 c).after 3 t = iblk m c 3 t := by dsimp only [dats]
theorem after_4 (c : Dev nD) (t : Fin cfg0.N) : (dats m o 0 c).after 4 t = iblk m c 4 t := by dsimp only [dats]
theorem after_5 (c : Dev nD) (t : Fin cfg0.N) : (dats m o 0 c).after 5 t = iblk m c 5 t := by dsimp only [dats]
theorem after_6 (c : Dev nD) (t : Fin cfg0.N) : (dats m o 0 c).after 6 t = iblk m c 6 t := by dsimp only [dats]
theorem after_7 (c : Dev nD) (t : Fin cfg0.N) : (dats m o 0 c).after 7 t = iblk m c 7 t := by dsimp only [dats]
theorem after_8 (c : Dev nD) (t : Fin cfg0.N) : (dats m o 0 c).after 8 t = iblk m c 8 t := by dsimp only [dats]
theorem after_9 (c : Dev nD) (t : Fin cfg0.N) : (dats m o 0 c).after 9 t = iblk m c 9 t := by dsimp only [dats]
theorem after_10 (c : Dev nD) (t : Fin cfg0.N) : (dats m o 0 c).after 10 t = iblk m c 10 t := by dsimp only [dats]
theorem after_11 (c : Dev nD) (t : Fin cfg0.N) : (dats m o 0 c).after 11 t = o c t := by dsimp only [dats]

/-! ## What the body finds -/

/-- A per-edge input is fetched at every point: its buffer holds the block on the rows inside the array and, past
    them, whatever the buffer held (`d`). -/
theorem before_0 (c : Dev nD) (t : Fin cfg0.N) (d) :
    (dats m o 0 c).before 0 t d = win0_0.fill (grid0.coords t) d (iblk m c 0 t) := by
  unfold Dat.before; rw [if_pos (fetch0_0 t)]; unfold Dat.fetched Dat.blockOf iblk; rw [A_eq]
theorem before_1 (c : Dev nD) (t : Fin cfg0.N) (d) :
    (dats m o 0 c).before 1 t d = win0_1.fill (grid0.coords t) d (iblk m c 1 t) := by
  unfold Dat.before; rw [if_pos (fetch0_1 t)]; unfold Dat.fetched Dat.blockOf iblk; rw [A_eq]
theorem before_2 (c : Dev nD) (t : Fin cfg0.N) (d) :
    (dats m o 0 c).before 2 t d = win0_2.fill (grid0.coords t) d (iblk m c 2 t) := by
  unfold Dat.before; rw [if_pos (fetch0_2 t)]; unfold Dat.fetched Dat.blockOf iblk; rw [A_eq]
/-- A parameter buffer holds its block at every point, fetched there or not. -/
theorem before_3 (c : Dev nD) (t : Fin cfg0.N) (d) : (dats m o 0 c).before 3 t d = iblk m c 3 t :=
  before0_3_of m (dats m o 0 c) (A_eq m o c 3) (after_3 m o c) t d
theorem before_4 (c : Dev nD) (t : Fin cfg0.N) (d) : (dats m o 0 c).before 4 t d = iblk m c 4 t :=
  before0_4_of m (dats m o 0 c) (A_eq m o c 4) (after_4 m o c) t d
theorem before_5 (c : Dev nD) (t : Fin cfg0.N) (d) : (dats m o 0 c).before 5 t d = iblk m c 5 t :=
  before0_5_of m (dats m o 0 c) (A_eq m o c 5) (after_5 m o c) t d
theorem before_6 (c : Dev nD) (t : Fin cfg0.N) (d) : (dats m o 0 c).before 6 t d = iblk m c 6 t :=
  before0_6_of m (dats m o 0 c) (A_eq m o c 6) (after_6 m o c) t d
theorem before_7 (c : Dev nD) (t : Fin cfg0.N) (d) : (dats m o 0 c).before 7 t d = iblk m c 7 t :=
  before0_7_of m (dats m o 0 c) (A_eq m o c 7) (after_7 m o c) t d
theorem before_8 (c : Dev nD) (t : Fin cfg0.N) (d) : (dats m o 0 c).before 8 t d = iblk m c 8 t :=
  before0_8_of m (dats m o 0 c) (A_eq m o c 8) (after_8 m o c) t d
theorem before_9 (c : Dev nD) (t : Fin cfg0.N) (d) : (dats m o 0 c).before 9 t d = iblk m c 9 t :=
  before0_9_of m (dats m o 0 c) (A_eq m o c 9) (after_9 m o c) t d
theorem before_10 (c : Dev nD) (t : Fin cfg0.N) (d) : (dats m o 0 c).before 10 t d = iblk m c 10 t :=
  before0_10_of m (dats m o 0 c) (A_eq m o c 10) (after_10 m o c) t d

end Cert.Kernel.Hand

end
-- ==== Proof.OblBits.lean ====
/-
  The body obligation of the pipelined edge update, twice: once saying nothing of the result's buffer (enough for
  the frame), once naming it (for the value).

  At each point the body is handed the eleven input buffers — the three per-edge ones just fetched (their block on
  the rows inside the array, anything past them), the eight parameter ones at their blocks — and the result's buffer
  at anything; it hands the inputs back unchanged and the result's buffer at the tile computed from them
  (`sound_kernel`). The per-edge inputs are handed back "on the rows inside the array": the block there, the same
  unnamed words past them. For the result's buffer the named form asks one more fact (`hcut`): that on the rows inside
  the array the computed tile does not depend on the unnamed words past them — true because every row of the tile
  depends on the same row of the per-edge inputs only, and proved where the tile is read row by row.
-/
import proofs.«139852_j84104049590405_2_alg».proof.Proof.DataBits
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (o : Dev nD → Fin cfg0.N → Vec F S4096x128 .f32)

/-- The windows whose buffers the frame says nothing of: the result's, alone. -/
abbrev fgtOut : Fin 12 → Bool := fun | 0 => false | 1 => false | 2 => false | 3 => false | 4 => false | 5 => false | 6 => false | 7 => false | 8 => false | 9 => false | 10 => false | 11 => true | ⟨_ + 12, h⟩ => absurd h (Nat.not_lt.2 (Nat.le_add_left _ _))

/-- The tile the body computes at point `t` when the three per-edge buffers hold their blocks on the rows inside
    the array and `d0`, `d1`, `d2` past them. -/
def tileAt (c : Dev nD) (t : Fin cfg0.N) (d0 : S4096x128.Idx → Elt F .f32) (d1 d2 : S4096x128.Idx → Elt F .bf16) : Vec F S4096x128 .f32 :=
  outBuf (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t)

set_option maxHeartbeats 1000000 in
/-- The obligation that forgets the result's buffer: whatever `o` is. -/
theorem body_obligation_fgt (c : Dev nD) :
    BodyObligationLoose (dats (F := F) m o 0 c) (defs₀ (F := F)) Variants.none () Set.univ fgtOut := fun t => by
  rw [bigSep_W0, bigSep_W0]
  simp only
  rw [show (dats m o 0 c).Φ t.succ = (dats m o 0 c).Φ t.castSucc from rfl,
    show (dats m o 0 c).owesAt () t.succ = (dats m o 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%X11, H11⟩⟩
  rw [before_0 m o c t d0, before_1 m o c t d1, before_2 m o c t d2, before_3 m o c t d3, before_4 m o c t d4, before_5 m o c t d5, before_6 m o c t d6, before_7 m o c t d7, before_8 m o c t d8, before_9 m o c t d9, before_10 m o c t d10]
  rw [show (defs₀ (F := F) Proc.tc 0 (t, cfg0.slots t)) = bodyAt0 (F := F) t from rfl]
  iapply (sound_kernel (F := F) c Set.univ (grid0.coords t) _ _ _ _ _ _ _ _ _ _ _ _ _ _ _ _ _ _ _ _ _ _ _ _ (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]
  · iexists d0
    rw [show (win0 0).cut (grid0.coords t) ((dats m o 0 c).after 0 t) = iblk m c 0 t from by
      rw [after_0]; exact win0_0.cut_fill _ _ _]
    iexact H0
  isplitl [H1]
  · iexists d1
    rw [show (win0 1).cut (grid0.coords t) ((dats m o 0 c).after 1 t) = iblk m c 1 t from by
      rw [after_1]; exact win0_1.cut_fill _ _ _]
    iexact H1
  isplitl [H2]
  · iexists d2
    rw [show (win0 2).cut (grid0.coords t) ((dats m o 0 c).after 2 t) = iblk m c 2 t from by
      rw [after_2]; exact win0_2.cut_fill _ _ _]
    iexact H2
  isplitl [H3]; · rw [after_3]; iexact H3
  isplitl [H4]; · rw [after_4]; iexact H4
  isplitl [H5]; · rw [after_5]; iexact H5
  isplitl [H6]; · rw [after_6]; iexact H6
  isplitl [H7]; · rw [after_7]; iexact H7
  isplitl [H8]; · rw [after_8]; iexact H8
  isplitl [H9]; · rw [after_9]; iexact H9
  isplitl [H10]; · rw [after_10]; iexact H10
  iexists _; iexact H11

set_option maxHeartbeats 1000000 in
/-- The obligation that names the result's buffer, given that on the rows inside the array the computed tile is
    `o c t`'s whatever lies past them in the per-edge buffers. -/
theorem body_obligation (c : Dev nD)
    (hcut : ∀ (t : Fin cfg0.N) d0 d1 d2, win0_11.cut (grid0.coords t) (tileAt m c t d0 d1 d2) = win0_11.cut (grid0.coords t) (o c t)) :
    BodyObligationLoose (dats (F := F) m o 0 c) (defs₀ (F := F)) Variants.none () Set.univ := fun t => by
  rw [bigSep_W0, bigSep_W0]
  simp only
  rw [show (dats m o 0 c).Φ t.succ = (dats m o 0 c).Φ t.castSucc from rfl,
    show (dats m o 0 c).owesAt () t.succ = (dats m o 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before_0 m o c t d0, before_1 m o c t d1, before_2 m o c t d2, before_3 m o c t d3, before_4 m o c t d4, before_5 m o c t d5, before_6 m o c t d6, before_7 m o c t d7, before_8 m o c t d8, before_9 m o c t d9, before_10 m o c t d10]
  rw [show (defs₀ (F := F) Proc.tc 0 (t, cfg0.slots t)) = bodyAt0 (F := F) t from rfl]
  iapply (sound_kernel (F := F) c Set.univ (grid0.coords t) _ _ _ _ _ _ _ _ _ _ _ _ _ _ _ _ _ _ _ _ _ _ _ _ (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]
  · iexists d0
    rw [show (win0 0).cut (grid0.coords t) ((dats m o 0 c).after 0 t) = iblk m c 0 t from by
      rw [after_0]; exact win0_0.cut_fill _ _ _]
    iexact H0
  isplitl [H1]
  · iexists d1
    rw [show (win0 1).cut (grid0.coords t) ((dats m o 0 c).after 1 t) = iblk m c 1 t from by
      rw [after_1]; exact win0_1.cut_fill _ _ _]
    iexact H1
  isplitl [H2]
  · iexists d2
    rw [show (win0 2).cut (grid0.coords t) ((dats m o 0 c).after 2 t) = iblk m c 2 t from by
      rw [after_2]; exact win0_2.cut_fill _ _ _]
    iexact H2
  isplitl [H3]; · rw [after_3]; iexact H3
  isplitl [H4]; · rw [after_4]; iexact H4
  isplitl [H5]; · rw [after_5]; iexact H5
  isplitl [H6]; · rw [after_6]; iexact H6
  isplitl [H7]; · rw [after_7]; iexact H7
  isplitl [H8]; · rw [after_8]; iexact H8
  isplitl [H9]; · rw [after_9]; iexact H9
  isplitl [H10]; · rw [after_10]; iexact H10
  iexists tileAt m c t d0 d1 d2
  rw [show (win0 11).cut (grid0.coords t) ((dats m o 0 c).after 11 t) = win0_11.cut (grid0.coords t) (tileAt m c t d0 d1 d2) from by
    rw [after_11]; exact (hcut t d0 d1 d2).symm]
  rw [show (win0 11).fill (grid0.coords t) (tileAt m c t d0 d1 d2) (win0_11.cut (grid0.coords t) (tileAt m c t d0 d1 d2)) = tileAt m c t d0 d1 d2 from
    win0_11.fill_cut _ _]
  iexact H11

end Cert.Kernel.Hand

end
-- ==== Proof.RunBits.lean ====
/-
  The runs of the pipelined edge update: every weakly fair execution terminates, faults nowhere, and

  * (`frame_fgt`) leaves the ten argument arrays as they were — from the obligation that says nothing of the
    result's buffer; this is all the frame claims, and it holds at any float instance;
  * (`run_named`) moreover leaves the result array at what the write-backs of the named tiles make it — from the
    obligation that names the result's buffer, given the one fact it asks (`hcut`).
-/
import proofs.«139852_j84104049590405_2_alg».proof.Proof.OblBits
import Idealize.ShloMosaic.Lib.Pipeline.Frame
import Idealize.ShloMosaic.Lib.Pipeline.Cells

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)
variable (o : Dev nD → Fin cfg0.N → Vec F S4096x128 .f32)

set_option backward.isDefEq.respectTransparency.types false in
/-- The run whose post says nothing of the result array: each other array of the pipeline at some contents it may
    hold after every write-back (for an input: its contents at the region's entry), every other buffer as the region
    found it. -/
theorem run_fgt : θ_run defs (onTc (τ := τ) (main (F := F))) (s₀ m ρ)
    (Pipeline.RDat.FramePost cfg0 (fun c => (dats m o 0 c).toRForget fgtOut) (V m)) :=
  Pipeline.RDat.θ_run_frame cfgs (0 : Fin 1) launch0 defs₀ Variants.none (fun c => (dats m o 0 c).toRForget fgtOut) m ρ main
    (hbody := fun c => (body_obligation_fgt m o c).toRForget)
    (hshare := fun c w => (dats m o 0 c).share_full (fun _ => rfl) w)
    (howed := fun _ _ => rfl) (V := V m) (hmain := hmain m Variants.none)
    (hA := fun c w => A_eq m o c w) (hΦ := fun _ _ => rfl)

/-- Any contents will do for the result's buffer in the data the frame is read off: the zero tile. -/
def oAny : Dev nD → Fin cfg0.N → Vec F S4096x128 .f32 := fun _ _ _ => Scalar.ofBits .f32 0#32

/-- The frame: the ten argument arrays end as they were. An argument some window stages is an input of the
    pipeline, never written; one no window stages is untouched by the region and by the host operations before it. -/
theorem frame_fgt : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(((dats m (oAny (F := F)) 0 c).toRForget_arrAt_iff (fgt := fgtOut) (w := 0) rfl _ _).mp ((h c).1 0)).trans (((dats m (oAny (F := F)) 0 c).arrAt_in 0 rfl _).trans ((A_eq m (oAny (F := F)) c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (((dats m (oAny (F := F)) 0 c).toRForget_arrAt_iff (fgt := fgtOut) (w := 6) rfl _ _).mp ((h c).1 6)).trans (((dats m (oAny (F := F)) 0 c).arrAt_in 6 rfl _).trans ((A_eq m (oAny (F := F)) c 6).trans (V_main_arg5 m c))),
      (((dats m (oAny (F := F)) 0 c).toRForget_arrAt_iff (fgt := fgtOut) (w := 7) rfl _ _).mp ((h c).1 7)).trans (((dats m (oAny (F := F)) 0 c).arrAt_in 7 rfl _).trans ((A_eq m (oAny (F := F)) c 7).trans (V_main_arg6 m c))),
      (((dats m (oAny (F := F)) 0 c).toRForget_arrAt_iff (fgt := fgtOut) (w := 8) rfl _ _).mp ((h c).1 8)).trans (((dats m (oAny (F := F)) 0 c).arrAt_in 8 rfl _).trans ((A_eq m (oAny (F := F)) c 8).trans (V_main_arg7 m c))),
      (((dats m (oAny (F := F)) 0 c).toRForget_arrAt_iff (fgt := fgtOut) (w := 9) rfl _ _).mp ((h c).1 9)).trans (((dats m (oAny (F := F)) 0 c).arrAt_in 9 rfl _).trans ((A_eq m (oAny (F := F)) c 9).trans (V_main_arg8 m c))),
      (((dats m (oAny (F := F)) 0 c).toRForget_arrAt_iff (fgt := fgtOut) (w := 10) rfl _ _).mp ((h c).1 10)).trans (((dats m (oAny (F := F)) 0 c).arrAt_in 10 rfl _).trans ((A_eq m (oAny (F := F)) c 10).trans (V_main_arg9 m c)))⟩)
    (run_fgt m ρ (oAny (F := F)))

set_option backward.isDefEq.respectTransparency.types false in
/-- The run that names the result array, given the tile fact at every core. -/
theorem run_named
    (hcut : ∀ c (t : Fin cfg0.N) d0 d1 d2, win0_11.cut (grid0.coords t) (tileAt m c t d0 d1 d2) = win0_11.cut (grid0.coords t) (o c t)) :
    θ_run defs (onTc (τ := τ) (main (F := F))) (s₀ m ρ) (Pipeline.FramePost cfgs (dats m o) 0 (V m)) :=
  Pipeline.θ_run_frame cfgs (dats m o) (0 : Fin 1) launch0 defs₀ Variants.none m ρ main
    (hbody := fun c => body_obligation m o c (hcut c)) (hshare := fun c => (dats m o 0 c).share_full fun _ => rfl)
    (howed := fun _ _ => rfl) (V := V m) (hmain := hmain m Variants.none) (hA := A_eq m o) (hΦ := fun _ _ => rfl)

end Cert.Kernel.Hand

end
-- ==== Proof.BodyIdeal.lean ====
/-
  The body of the edge-update kernel, run once on whole staging buffers.

  The body reads eleven buffers whole — the tile of edge features, the two tiles of gathered node rows, the three
  bands of the first weight matrix, its bias, the second weight matrix, its bias, and LayerNorm's scale and shift —,
  computes one tile of new edge features from them, and overwrites the twelfth buffer with it, whole. Nothing else
  is touched: the eleven inputs end as they were. The value stored is a pure function of the values loaded
  (`stored`), whatever the float instance; what that function IS, row by row, is read elsewhere and only at the
  ideal instance.
-/
import proofs.«139852_j84104049590405_2_alg».proof.Proof.Gen.KernelIdeal.Frame
import proofs.«139852_j84104049590405_2_alg».proof.Proof.Gen.KernelIdeal.Skeleton
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The three rectangles the body reads and writes through: each a whole buffer -/

abbrev rA : Rect S4096x128 := Rect.unit (s := S4096x128) ![0, 0] S4096x128.size inb_S4096x128_S4096x128_0_0
abbrev rW : Rect S128x128 := Rect.unit (s := S128x128) ![0, 0] S128x128.size inb_S128x128_S128x128_0_0
abbrev rV : Rect S128 := Rect.unit (s := S128) ![0] S128.size inb_S128_S128_0

/-- The tile the body stores, as a function of the eleven values it loaded. -/
def stored (x0 : Vec F S4096x128 .f32) (x1 : Vec F S4096x128 .bf16) (x2 : Vec F S4096x128 .bf16) (x3 : Vec F S128x128 .f32) (x4 : Vec F S128x128 .f32) (x5 : Vec F S128x128 .f32) (x6 : Vec F S128 .f32) (x7 : Vec F S128x128 .f32) (x8 : Vec F S128 .f32) (x9 : Vec F S128 .f32) (x10 : Vec F S128 .f32) : Vec F S4096x128 .f32 :=
  k0_pay1 x0 (k0_pay2 x0 x1 x2 x3 x4 x5 x6 x7 x8) (k0_pay3 x0 x1 x2 x3 x4 x5 x6 x7 x8) (k0_pay4 (F := F)) x9 x10

/-- What the output buffer holds after the body: its one store, through the whole-buffer rectangle, of the tile
    computed from the loads (each load through its whole-buffer rectangle). -/
def outBuf (x0 : Vec F S4096x128 .f32) (x1 : Vec F S4096x128 .bf16) (x2 : Vec F S4096x128 .bf16) (x3 : Vec F S128x128 .f32) (x4 : Vec F S128x128 .f32) (x5 : Vec F S128x128 .f32) (x6 : Vec F S128 .f32) (x7 : Vec F S128x128 .f32) (x8 : Vec F S128 .f32) (x9 : Vec F S128 .f32) (x10 : Vec F S128 .f32) : Vec F S4096x128 .f32 :=
  View.canon [⟨rA, k0_pay1 (View.ld x0 rA) (k0_pay2 (View.ld x0 rA) (View.ld x1 rA) (View.ld x2 rA) (View.ld x3 rW) (View.ld x4 rW) (View.ld x5 rW) (View.ld x6 rV) (View.ld x7 rW) (View.ld x8 rV)) (k0_pay3 (View.ld x0 rA) (View.ld x1 rA) (View.ld x2 rA) (View.ld x3 rW) (View.ld x4 rW) (View.ld x5 rW) (View.ld x6 rV) (View.ld x7 rW) (View.ld x8 rV)) (k0_pay4 (F := F)) (View.ld x9 rV) (View.ld x10 rV)⟩]

/-- The one store covers the buffer. -/
theorem cover_out (p0 : Vec F S4096x128 .f32) (y : S4096x128.Idx) :
    ∃ pc ∈ ([⟨rA, p0⟩] : List (View.Piece (Elt F) S4096x128 .f32)), y ∈ pc.1.set :=
  View.cover_of_tiled [⟨rA, p0⟩] S4096x128.size (by rfl) y

set_option maxHeartbeats 2000000 in
/-- The body's triple: from the eleven input buffers at read contents and the output buffer at anything, it runs
    to the eleven inputs unchanged and the output at `outBuf` of them. -/
theorem sound_kernel (c : Dev nD) (E : Set ℕ) (i : grid0.Coords) (arg1 : Memref sig .tc .vmem S4096x128 .f32) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128 .f32) (harg10 : arg10.IsWhole) (arg11 : Memref sig .tc .vmem S128 .f32) (harg11 : arg11.IsWhole) (arg12 : Memref sig .tc .vmem S4096x128 .f32) (harg12 : arg12.IsWhole)
    (x0 : Vec F S4096x128 .f32) (x1 : Vec F S4096x128 .bf16) (x2 : Vec F S4096x128 .bf16) (x3 : Vec F S128x128 .f32) (x4 : Vec F S128x128 .f32) (x5 : Vec F S128x128 .f32) (x6 : Vec F S128 .f32) (x7 : Vec F S128x128 .f32) (x8 : Vec F S128 .f32) (x9 : Vec F S128 .f32) (x10 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outBuf x0 x1 x2 x3 x4 x5 x6 x7 x8 x9 x10)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover_out _)

end Cert.KernelIdeal.Hand

end
-- ==== Proof.DataIdeal.lean ====
/-
  The proof data of the pipelined edge update, and what the body finds in each staging buffer.

  The grid has 123 points; point `t` works on edges 4096·t … 4096·t + 4095. The array has 500000 rows, so the last
  point's tile overhangs it by 3808 rows: there the fetches of the three per-edge inputs land only the 288 rows
  inside the array and leave the rest of the buffer holding words nothing names, and the write-back of the result
  writes only those 288 rows. So for those four windows everything is stated on the rows inside the array only
  (`Window.fill` / `Window.cut`). The eight parameter windows (weights, biases, scale, shift) are fetched once, at the
  first point, and found unchanged at every later one.
-/
import proofs.«139852_j84104049590405_2_alg».proof.Proof.BodyIdeal
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data on core `c`: the arrays as the region finds them; after the body, each per-edge input buffer at
    its block on the rows inside the array (zero past them: a word the proof picks and nothing reads), each parameter
    buffer at its block, and the result's buffer at `o c t` — the one thing the two uses of this definition choose
    differently. -/
def dats (o : Dev nD → Fin cfg0.N → Vec F S4096x128 .f32) (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .bf16 0#16) (iblk m c 1 t)
    | ⟨2, _⟩ => win0_2.fill (grid0.coords t) (fun _ => Scalar.ofBits .bf16 0#16) (iblk m c 2 t)
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => o c t
  Φ _ := Pipeline.ΦA spec0 c
  q _ := fullShare
  owed _ := 0

variable (o : Dev nD → Fin cfg0.N → Vec F S4096x128 .f32)

theorem A_eq (c : Dev nD) (w : Fin cfg0.W) : (dats m o 0 c).A w = V m c (Pipeline.arrRef spec0 w) := by
  dsimp only [dats]

theorem after_0 (c : Dev nD) (t : Fin cfg0.N) : (dats m o 0 c).after 0 t = win0_0.fill (grid0.coords t) (fun _ => Scalar.ofBits .f32 0#32) (iblk m c 0 t) := by dsimp only [dats]
theorem after_1 (c : Dev nD) (t : Fin cfg0.N) : (dats m o 0 c).after 1 t = win0_1.fill (grid0.coords t) (fun _ => Scalar.ofBits .bf16 0#16) (iblk m c 1 t) := by dsimp only [dats]
theorem after_2 (c : Dev nD) (t : Fin cfg0.N) : (dats m o 0 c).after 2 t = win0_2.fill (grid0.coords t) (fun _ => Scalar.ofBits .bf16 0#16) (iblk m c 2 t) := by dsimp only [dats]
theorem after_3 (c : Dev nD) (t : Fin cfg0.N) : (dats m o 0 c).after 3 t = iblk m c 3 t := by dsimp only [dats]
theorem after_4 (c : Dev nD) (t : Fin cfg0.N) : (dats m o 0 c).after 4 t = iblk m c 4 t := by dsimp only [dats]
theorem after_5 (c : Dev nD) (t : Fin cfg0.N) : (dats m o 0 c).after 5 t = iblk m c 5 t := by dsimp only [dats]
theorem after_6 (c : Dev nD) (t : Fin cfg0.N) : (dats m o 0 c).after 6 t = iblk m c 6 t := by dsimp only [dats]
theorem after_7 (c : Dev nD) (t : Fin cfg0.N) : (dats m o 0 c).after 7 t = iblk m c 7 t := by dsimp only [dats]
theorem after_8 (c : Dev nD) (t : Fin cfg0.N) : (dats m o 0 c).after 8 t = iblk m c 8 t := by dsimp only [dats]
theorem after_9 (c : Dev nD) (t : Fin cfg0.N) : (dats m o 0 c).after 9 t = iblk m c 9 t := by dsimp only [dats]
theorem after_10 (c : Dev nD) (t : Fin cfg0.N) : (dats m o 0 c).after 10 t = iblk m c 10 t := by dsimp only [dats]
theorem after_11 (c : Dev nD) (t : Fin cfg0.N) : (dats m o 0 c).after 11 t = o c t := by dsimp only [dats]

/-! ## What the body finds -/

/-- A per-edge input is fetched at every point: its buffer holds the block on the rows inside the array and, past
    them, whatever the buffer held (`d`). -/
theorem before_0 (c : Dev nD) (t : Fin cfg0.N) (d) :
    (dats m o 0 c).before 0 t d = win0_0.fill (grid0.coords t) d (iblk m c 0 t) := by
  unfold Dat.before; rw [if_pos (fetch0_0 t)]; unfold Dat.fetched Dat.blockOf iblk; rw [A_eq]
theorem before_1 (c : Dev nD) (t : Fin cfg0.N) (d) :
    (dats m o 0 c).before 1 t d = win0_1.fill (grid0.coords t) d (iblk m c 1 t) := by
  unfold Dat.before; rw [if_pos (fetch0_1 t)]; unfold Dat.fetched Dat.blockOf iblk; rw [A_eq]
theorem before_2 (c : Dev nD) (t : Fin cfg0.N) (d) :
    (dats m o 0 c).before 2 t d = win0_2.fill (grid0.coords t) d (iblk m c 2 t) := by
  unfold Dat.before; rw [if_pos (fetch0_2 t)]; unfold Dat.fetched Dat.blockOf iblk; rw [A_eq]
/-- A parameter buffer holds its block at every point, fetched there or not. -/
theorem before_3 (c : Dev nD) (t : Fin cfg0.N) (d) : (dats m o 0 c).before 3 t d = iblk m c 3 t :=
  before0_3_of m (dats m o 0 c) (A_eq m o c 3) (after_3 m o c) t d
theorem before_4 (c : Dev nD) (t : Fin cfg0.N) (d) : (dats m o 0 c).before 4 t d = iblk m c 4 t :=
  before0_4_of m (dats m o 0 c) (A_eq m o c 4) (after_4 m o c) t d
theorem before_5 (c : Dev nD) (t : Fin cfg0.N) (d) : (dats m o 0 c).before 5 t d = iblk m c 5 t :=
  before0_5_of m (dats m o 0 c) (A_eq m o c 5) (after_5 m o c) t d
theorem before_6 (c : Dev nD) (t : Fin cfg0.N) (d) : (dats m o 0 c).before 6 t d = iblk m c 6 t :=
  before0_6_of m (dats m o 0 c) (A_eq m o c 6) (after_6 m o c) t d
theorem before_7 (c : Dev nD) (t : Fin cfg0.N) (d) : (dats m o 0 c).before 7 t d = iblk m c 7 t :=
  before0_7_of m (dats m o 0 c) (A_eq m o c 7) (after_7 m o c) t d
theorem before_8 (c : Dev nD) (t : Fin cfg0.N) (d) : (dats m o 0 c).before 8 t d = iblk m c 8 t :=
  before0_8_of m (dats m o 0 c) (A_eq m o c 8) (after_8 m o c) t d
theorem before_9 (c : Dev nD) (t : Fin cfg0.N) (d) : (dats m o 0 c).before 9 t d = iblk m c 9 t :=
  before0_9_of m (dats m o 0 c) (A_eq m o c 9) (after_9 m o c) t d
theorem before_10 (c : Dev nD) (t : Fin cfg0.N) (d) : (dats m o 0 c).before 10 t d = iblk m c 10 t :=
  before0_10_of m (dats m o 0 c) (A_eq m o c 10) (after_10 m o c) t d

end Cert.KernelIdeal.Hand

end
-- ==== Proof.OblIdeal.lean ====
/-
  The body obligation of the pipelined edge update, twice: once saying nothing of the result's buffer (enough for
  the frame), once naming it (for the value).

  At each point the body is handed the eleven input buffers — the three per-edge ones just fetched (their block on
  the rows inside the array, anything past them), the eight parameter ones at their blocks — and the result's buffer
  at anything; it hands the inputs back unchanged and the result's buffer at the tile computed from them
  (`sound_kernel`). The per-edge inputs are handed back "on the rows inside the array": the block there, the same
  unnamed words past them. For the result's buffer the named form asks one more fact (`hcut`): that on the rows inside
  the array the computed tile does not depend on the unnamed words past them — true because every row of the tile
  depends on the same row of the per-edge inputs only, and proved where the tile is read row by row.
-/
import proofs.«139852_j84104049590405_2_alg».proof.Proof.DataIdeal
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (o : Dev nD → Fin cfg0.N → Vec F S4096x128 .f32)

/-- The windows whose buffers the frame says nothing of: the result's, alone. -/
abbrev fgtOut : Fin 12 → Bool := fun | 0 => false | 1 => false | 2 => false | 3 => false | 4 => false | 5 => false | 6 => false | 7 => false | 8 => false | 9 => false | 10 => false | 11 => true | ⟨_ + 12, h⟩ => absurd h (Nat.not_lt.2 (Nat.le_add_left _ _))

/-- The tile the body computes at point `t` when the three per-edge buffers hold their blocks on the rows inside
    the array and `d0`, `d1`, `d2` past them. -/
def tileAt (c : Dev nD) (t : Fin cfg0.N) (d0 : S4096x128.Idx → Elt F .f32) (d1 d2 : S4096x128.Idx → Elt F .bf16) : Vec F S4096x128 .f32 :=
  outBuf (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t)

set_option maxHeartbeats 1000000 in
/-- The obligation that forgets the result's buffer: whatever `o` is. -/
theorem body_obligation_fgt (c : Dev nD) :
    BodyObligationLoose (dats (F := F) m o 0 c) (defs₀ (F := F)) Variants.none () Set.univ fgtOut := fun t => by
  rw [bigSep_W0, bigSep_W0]
  simp only
  rw [show (dats m o 0 c).Φ t.succ = (dats m o 0 c).Φ t.castSucc from rfl,
    show (dats m o 0 c).owesAt () t.succ = (dats m o 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%X11, H11⟩⟩
  rw [before_0 m o c t d0, before_1 m o c t d1, before_2 m o c t d2, before_3 m o c t d3, before_4 m o c t d4, before_5 m o c t d5, before_6 m o c t d6, before_7 m o c t d7, before_8 m o c t d8, before_9 m o c t d9, before_10 m o c t d10]
  rw [show (defs₀ (F := F) Proc.tc 0 (t, cfg0.slots t)) = bodyAt0 (F := F) t from rfl]
  iapply (sound_kernel (F := F) c Set.univ (grid0.coords t) _ _ _ _ _ _ _ _ _ _ _ _ _ _ _ _ _ _ _ _ _ _ _ _ (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]
  · iexists d0
    rw [show (win0 0).cut (grid0.coords t) ((dats m o 0 c).after 0 t) = iblk m c 0 t from by
      rw [after_0]; exact win0_0.cut_fill _ _ _]
    iexact H0
  isplitl [H1]
  · iexists d1
    rw [show (win0 1).cut (grid0.coords t) ((dats m o 0 c).after 1 t) = iblk m c 1 t from by
      rw [after_1]; exact win0_1.cut_fill _ _ _]
    iexact H1
  isplitl [H2]
  · iexists d2
    rw [show (win0 2).cut (grid0.coords t) ((dats m o 0 c).after 2 t) = iblk m c 2 t from by
      rw [after_2]; exact win0_2.cut_fill _ _ _]
    iexact H2
  isplitl [H3]; · rw [after_3]; iexact H3
  isplitl [H4]; · rw [after_4]; iexact H4
  isplitl [H5]; · rw [after_5]; iexact H5
  isplitl [H6]; · rw [after_6]; iexact H6
  isplitl [H7]; · rw [after_7]; iexact H7
  isplitl [H8]; · rw [after_8]; iexact H8
  isplitl [H9]; · rw [after_9]; iexact H9
  isplitl [H10]; · rw [after_10]; iexact H10
  iexists _; iexact H11

set_option maxHeartbeats 1000000 in
/-- The obligation that names the result's buffer, given that on the rows inside the array the computed tile is
    `o c t`'s whatever lies past them in the per-edge buffers. -/
theorem body_obligation (c : Dev nD)
    (hcut : ∀ (t : Fin cfg0.N) d0 d1 d2, win0_11.cut (grid0.coords t) (tileAt m c t d0 d1 d2) = win0_11.cut (grid0.coords t) (o c t)) :
    BodyObligationLoose (dats (F := F) m o 0 c) (defs₀ (F := F)) Variants.none () Set.univ := fun t => by
  rw [bigSep_W0, bigSep_W0]
  simp only
  rw [show (dats m o 0 c).Φ t.succ = (dats m o 0 c).Φ t.castSucc from rfl,
    show (dats m o 0 c).owesAt () t.succ = (dats m o 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before_0 m o c t d0, before_1 m o c t d1, before_2 m o c t d2, before_3 m o c t d3, before_4 m o c t d4, before_5 m o c t d5, before_6 m o c t d6, before_7 m o c t d7, before_8 m o c t d8, before_9 m o c t d9, before_10 m o c t d10]
  rw [show (defs₀ (F := F) Proc.tc 0 (t, cfg0.slots t)) = bodyAt0 (F := F) t from rfl]
  iapply (sound_kernel (F := F) c Set.univ (grid0.coords t) _ _ _ _ _ _ _ _ _ _ _ _ _ _ _ _ _ _ _ _ _ _ _ _ (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]
  · iexists d0
    rw [show (win0 0).cut (grid0.coords t) ((dats m o 0 c).after 0 t) = iblk m c 0 t from by
      rw [after_0]; exact win0_0.cut_fill _ _ _]
    iexact H0
  isplitl [H1]
  · iexists d1
    rw [show (win0 1).cut (grid0.coords t) ((dats m o 0 c).after 1 t) = iblk m c 1 t from by
      rw [after_1]; exact win0_1.cut_fill _ _ _]
    iexact H1
  isplitl [H2]
  · iexists d2
    rw [show (win0 2).cut (grid0.coords t) ((dats m o 0 c).after 2 t) = iblk m c 2 t from by
      rw [after_2]; exact win0_2.cut_fill _ _ _]
    iexact H2
  isplitl [H3]; · rw [after_3]; iexact H3
  isplitl [H4]; · rw [after_4]; iexact H4
  isplitl [H5]; · rw [after_5]; iexact H5
  isplitl [H6]; · rw [after_6]; iexact H6
  isplitl [H7]; · rw [after_7]; iexact H7
  isplitl [H8]; · rw [after_8]; iexact H8
  isplitl [H9]; · rw [after_9]; iexact H9
  isplitl [H10]; · rw [after_10]; iexact H10
  iexists tileAt m c t d0 d1 d2
  rw [show (win0 11).cut (grid0.coords t) ((dats m o 0 c).after 11 t) = win0_11.cut (grid0.coords t) (tileAt m c t d0 d1 d2) from by
    rw [after_11]; exact (hcut t d0 d1 d2).symm]
  rw [show (win0 11).fill (grid0.coords t) (tileAt m c t d0 d1 d2) (win0_11.cut (grid0.coords t) (tileAt m c t d0 d1 d2)) = tileAt m c t d0 d1 d2 from
    win0_11.fill_cut _ _]
  iexact H11

end Cert.KernelIdeal.Hand

end
-- ==== Proof.RunIdeal.lean ====
/-
  The runs of the pipelined edge update: every weakly fair execution terminates, faults nowhere, and

  * (`frame_fgt`) leaves the ten argument arrays as they were — from the obligation that says nothing of the
    result's buffer; this is all the frame claims, and it holds at any float instance;
  * (`run_named`) moreover leaves the result array at what the write-backs of the named tiles make it — from the
    obligation that names the result's buffer, given the one fact it asks (`hcut`).
-/
import proofs.«139852_j84104049590405_2_alg».proof.Proof.OblIdeal
import Idealize.ShloMosaic.Lib.Pipeline.Frame
import Idealize.ShloMosaic.Lib.Pipeline.Cells

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)
variable (o : Dev nD → Fin cfg0.N → Vec F S4096x128 .f32)

set_option backward.isDefEq.respectTransparency.types false in
/-- The run whose post says nothing of the result array: each other array of the pipeline at some contents it may
    hold after every write-back (for an input: its contents at the region's entry), every other buffer as the region
    found it. -/
theorem run_fgt : θ_run defs (onTc (τ := τ) (main (F := F))) (s₀ m ρ)
    (Pipeline.RDat.FramePost cfg0 (fun c => (dats m o 0 c).toRForget fgtOut) (V m)) :=
  Pipeline.RDat.θ_run_frame cfgs (0 : Fin 1) launch0 defs₀ Variants.none (fun c => (dats m o 0 c).toRForget fgtOut) m ρ main
    (hbody := fun c => (body_obligation_fgt m o c).toRForget)
    (hshare := fun c w => (dats m o 0 c).share_full (fun _ => rfl) w)
    (howed := fun _ _ => rfl) (V := V m) (hmain := hmain m Variants.none)
    (hA := fun c w => A_eq m o c w) (hΦ := fun _ _ => rfl)

/-- Any contents will do for the result's buffer in the data the frame is read off: the zero tile. -/
def oAny : Dev nD → Fin cfg0.N → Vec F S4096x128 .f32 := fun _ _ _ => Scalar.ofBits .f32 0#32

/-- The frame: the ten argument arrays end as they were. An argument some window stages is an input of the
    pipeline, never written; one no window stages is untouched by the region and by the host operations before it. -/
theorem frame_fgt : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(((dats m (oAny (F := F)) 0 c).toRForget_arrAt_iff (fgt := fgtOut) (w := 0) rfl _ _).mp ((h c).1 0)).trans (((dats m (oAny (F := F)) 0 c).arrAt_in 0 rfl _).trans ((A_eq m (oAny (F := F)) c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (((dats m (oAny (F := F)) 0 c).toRForget_arrAt_iff (fgt := fgtOut) (w := 6) rfl _ _).mp ((h c).1 6)).trans (((dats m (oAny (F := F)) 0 c).arrAt_in 6 rfl _).trans ((A_eq m (oAny (F := F)) c 6).trans (V_main_arg5 m c))),
      (((dats m (oAny (F := F)) 0 c).toRForget_arrAt_iff (fgt := fgtOut) (w := 7) rfl _ _).mp ((h c).1 7)).trans (((dats m (oAny (F := F)) 0 c).arrAt_in 7 rfl _).trans ((A_eq m (oAny (F := F)) c 7).trans (V_main_arg6 m c))),
      (((dats m (oAny (F := F)) 0 c).toRForget_arrAt_iff (fgt := fgtOut) (w := 8) rfl _ _).mp ((h c).1 8)).trans (((dats m (oAny (F := F)) 0 c).arrAt_in 8 rfl _).trans ((A_eq m (oAny (F := F)) c 8).trans (V_main_arg7 m c))),
      (((dats m (oAny (F := F)) 0 c).toRForget_arrAt_iff (fgt := fgtOut) (w := 9) rfl _ _).mp ((h c).1 9)).trans (((dats m (oAny (F := F)) 0 c).arrAt_in 9 rfl _).trans ((A_eq m (oAny (F := F)) c 9).trans (V_main_arg8 m c))),
      (((dats m (oAny (F := F)) 0 c).toRForget_arrAt_iff (fgt := fgtOut) (w := 10) rfl _ _).mp ((h c).1 10)).trans (((dats m (oAny (F := F)) 0 c).arrAt_in 10 rfl _).trans ((A_eq m (oAny (F := F)) c 10).trans (V_main_arg9 m c)))⟩)
    (run_fgt m ρ (oAny (F := F)))

set_option backward.isDefEq.respectTransparency.types false in
/-- The run that names the result array, given the tile fact at every core. -/
theorem run_named
    (hcut : ∀ c (t : Fin cfg0.N) d0 d1 d2, win0_11.cut (grid0.coords t) (tileAt m c t d0 d1 d2) = win0_11.cut (grid0.coords t) (o c t)) :
    θ_run defs (onTc (τ := τ) (main (F := F))) (s₀ m ρ) (Pipeline.FramePost cfgs (dats m o) 0 (V m)) :=
  Pipeline.θ_run_frame cfgs (dats m o) (0 : Fin 1) launch0 defs₀ Variants.none m ρ main
    (hbody := fun c => body_obligation m o c (hcut c)) (hshare := fun c => (dats m o 0 c).share_full fun _ => rfl)
    (howed := fun _ _ => rfl) (V := V m) (hmain := hmain m Variants.none) (hA := A_eq m o) (hΦ := fun _ _ => rfl)

end Cert.KernelIdeal.Hand

end
-- ==== Proof.Spec.lean ====
/-
  The edge update as ONE function of the arrays, on the extended reals.

  For edge `r` with feature row `e`, source-node row `s` and target-node row `d` (128 entries each):
    pre  j = Σ_k e k · We(k, j) + Σ_k s k · Ws(k, j) + Σ_k d k · Wd(k, j) + b1 j      (the first linear layer, its
                                                                                   384 input rows in three bands)
    act  j = pre j · logistic (pre j)                                                (SiLU)
    lin2 j = Σ_k act k · W2(k, j) + b2 j                                             (the second linear layer)
    mean o = (Σ_k o k) / 128
    norm j = (lin2 j − mean lin2) · rsqrt (mean (lin2 − mean lin2)² + ε) · γ j + β j   (LayerNorm over the 128 outputs)
    out  j = norm j + e j                                                            (the residual)
  The number 128 and ε are kept as the float words both programs print (the same word on both sides is never
  evaluated). Every entry of row `r` of the result depends on rows `r` of the three feature arrays only: that is why a
  tile of edges can be computed from the same tile of its inputs, whatever the other rows hold.
-/
import Idealize.ShloMosaic.PureOps.Ideal
import Idealize.ShloMosaic.PureOps.Ideal.Laws
import Idealize.ShloMosaic.Lib.ValueIdx

noncomputable section

open scoped BigOperators

namespace Cert.EdgeUpdate

open Idealize.ShloMosaic Idealize.ShloMosaic.ValueIdx

/-- A matrix shape and a vector shape, spelt as the printed programs spell theirs. -/
abbrev Mat (r c : Nat) : Shape := ⟨2, ![r, c]⟩
abbrev Row (n : Nat) : Shape := ⟨1, ![n]⟩

/-- The first linear layer on one edge: the three bands of the weight matrix against the edge's own row, its source
    node's row and its target node's row, summed in that order, plus the bias. -/
def pre (e s d : Fin 128 → EReal) (we ws wd : (Mat 128 128).Idx → EReal) (b1 : (Row 128).Idx → EReal) (j : Fin 128) : EReal :=
  (((∑ k : Fin 128, e k * we (ix2 k j)) + (∑ k : Fin 128, s k * ws (ix2 k j))) + (∑ k : Fin 128, d k * wd (ix2 k j)))
    + b1 (ix1 j)

/-- SiLU, entry by entry. -/
def act (h : Fin 128 → EReal) (j : Fin 128) : EReal := h j * Ideal.logistic (h j)

/-- The second linear layer on one edge. -/
def lin2 (a : Fin 128 → EReal) (w2 : (Mat 128 128).Idx → EReal) (b2 : (Row 128).Idx → EReal) (j : Fin 128) : EReal :=
  (∑ k : Fin 128, a k * w2 (ix2 k j)) + b2 (ix1 j)

/-- The mean of a row of 128: its sum divided by the float word for 128. -/
def mean (o : Fin 128 → EReal) : EReal := Ideal.div (∑ k : Fin 128, o k) (Ideal.ofBits .f32 0x43000000#32)

/-- LayerNorm of a row: centred, scaled by the reciprocal root of the variance plus ε (the float word both programs
    print for 1e-5), then the affine map. -/
def norm (o : Fin 128 → EReal) (g be : (Row 128).Idx → EReal) (j : Fin 128) : EReal :=
  ((o j - mean o) * Ideal.rsqrt (mean (fun k => (o k - mean o) * (o k - mean o)) + Ideal.ofBits .f32 0x3727C5AC#32))
    * g (ix1 j) + be (ix1 j)

/-- One edge's new feature row. -/
def rowOut (e s d : Fin 128 → EReal) (we ws wd : (Mat 128 128).Idx → EReal) (b1 : (Row 128).Idx → EReal)
    (w2 : (Mat 128 128).Idx → EReal) (b2 g be : (Row 128).Idx → EReal) (j : Fin 128) : EReal :=
  norm (lin2 (act (pre e s d we ws wd b1)) w2 b2) g be j + e j

/-- The whole result: row `r` is `rowOut` of rows `r` of the edge features and of the two arrays of gathered node
    rows. Stated for any number `n` of edges, so that it reads a tile of 4096 edges and the array of 500000 alike. -/
def G {n : Nat} (ef ns nd : (Mat n 128).Idx → EReal) (we ws wd : (Mat 128 128).Idx → EReal) (b1 : (Row 128).Idx → EReal)
    (w2 : (Mat 128 128).Idx → EReal) (b2 g be : (Row 128).Idx → EReal) : (Mat n 128).Idx → EReal :=
  fun i => rowOut (fun k => ef (ix2 (i 0) k)) (fun k => ns (ix2 (i 0) k)) (fun k => nd (ix2 (i 0) k))
    we ws wd b1 w2 b2 g be (i 1)

/-- A band of 128 consecutive rows of the 384-row weight matrix, starting at row `off`: the rows that multiply the
    edge's own features (`off = 0`), its source node's (`128`) or its target node's (`256`). -/
def band (w : (Mat 384 128).Idx → EReal) (off : Nat) (h : off + 128 ≤ 384) : (Mat 128 128).Idx → EReal :=
  fun i => w (ix2 ⟨off + (i 0).val, by have := idx2_lt0 i; omega⟩ (i 1))

theorem G_apply {n : Nat} (ef ns nd : (Mat n 128).Idx → EReal) (we ws wd : (Mat 128 128).Idx → EReal) (b1 : (Row 128).Idx → EReal)
    (w2 : (Mat 128 128).Idx → EReal) (b2 g be : (Row 128).Idx → EReal) (r : Fin n) (j : Fin 128) :
    G ef ns nd we ws wd b1 w2 b2 g be (ix2 r j)
      = rowOut (fun k => ef (ix2 r k)) (fun k => ns (ix2 r k)) (fun k => nd (ix2 r k)) we ws wd b1 w2 b2 g be j := rfl

end Cert.EdgeUpdate

end
-- ==== Proof.KernelPay.lean ====
/-
  The kernel's stored tile, read at an index, is the edge update of the loaded tiles.

  The body of the kernel computes, on a tile of 4096 edges, four pure terms: the two linear layers with
  SiLU between them (three matrix products into zero accumulators, summed, plus a bias row; the logistic;
  a product; a fourth matrix product plus a bias row), the row sums of that result kept as a column, the
  splat of the float word for 128, and LayerNorm with the residual. On the extended reals every rounding
  to a narrower format is the identity, a matrix product into zero at (r, j) is the sum over k of
  lhs (r, k) * rhs (k, j), a lane sum at row r is the sum over k of the source at (r, k), a row broadcast
  reads its vector at the column, and a column broadcast reads its column at the row. Read at (r, j), each
  stage therefore is the corresponding stage of the specification on rows r of the three feature tiles,
  and the stored tile is G of them. Because G at row r reads only rows r, two triples of tiles that agree
  on one row give stored tiles that agree on that row.
-/
import proofs.«139852_j84104049590405_2_alg».proof.Proof.Spec
import proofs.«139852_j84104049590405_2_alg».proof.Proof.Gen.KernelIdeal.Skeleton
import Idealize.ShloMosaic.Lib.ValueLayout
import Idealize.ShloMosaic.PureOps.Ideal.Laws

noncomputable section

open scoped BigOperators

namespace Cert.EdgeUpdate.Pay

open Idealize.ShloMosaic Idealize.ShloMosaic.ValueIdx Cert.KernelIdeal Cert.KernelIdeal.Gen

/-! ## Layout operations at an index given by coordinates -/

section Layout
variable {α : Type}

/-- A vector of 128 cast to one row and broadcast over the 4096 rows reads, at (r, j), the vector at j. -/
theorem rowBroadcast_apply (b : S128.Idx → α) (h1 : S128.ShapeCasts S1x128) (h2 : S1x128.Broadcasts S4096x128)
    (r : Fin 4096) (j : Fin 128) :
    broadcastTo S4096x128 (shapeCast S1x128 b h1) h2 (ix2 r j) = b (ix1 j) :=
  (broadcastTo_1b_ab_apply _ h2 r j).trans (shapeCast_a_1a_apply b h1 0 j)

/-- A vector of 4096 cast to a column reads, at (r, u), the vector at r. -/
theorem colCast_apply (v : S4096.Idx → α) (h : S4096.ShapeCasts S4096x1) (r : Fin 4096) (u : Fin 1) :
    shapeCast S4096x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column of 4096 broadcast over 128 lanes reads, at (r, j), the column at row r. -/
theorem colBroadcast_apply (c : S4096x1.Idx → α) (h : S4096x1.Broadcasts S4096x128) (r : Fin 4096) (j : Fin 128) :
    broadcastTo S4096x128 c h (ix2 r j) = c (ix2 r (0 : Fin 1)) := by
  refine broadcastTo_apply c h (ix2 r j) (ix2 r (0 : Fin 1)) fun ax => ?_
  match ax with
  | ⟨0, _⟩ =>
    show r.val = if (4096 : Nat) = 1 then 0 else r.val
    rw [if_neg (by decide)]
  | ⟨1, _⟩ => rfl

end Layout

/-! ## A matrix product into the zero accumulator, and a lane sum, at an index -/

theorem lhsIdx_row (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhsIdx_col (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhsIdx_row (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhsIdx_col (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- A [4096,128] by [128,128] matrix product into the zero splat, read at (r, j): the sum over k of lhs (r, k) * rhs (k, j). -/
theorem matmulZero_apply {φ₁ φ₂ : FTy} (lhs : FVec Ideal S4096x128 φ₁) (rhs : FVec Ideal S128x128 φ₂) (r : Fin 4096) (j : Fin 128) :
    matmul (F := Ideal) dot_S4096x128_S128x128_S4096x128_1_0_0_1_n_n none lhs rhs (constant S4096x128 .f32 0x00000000#32) (ix2 r j)
      = ∑ k : Fin 128, lhs (ix2 r k) * rhs (ix2 k j) := by
  refine (Ideal.matmul_constant_zero_apply dot_S4096x128_S128x128_S4096x128_1_0_0_1_n_n none lhs rhs (ix2 r j)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r j) ((contrEquiv1 dot_S4096x128_S128x128_S4096x128_1_0_0_1_n_n 128 rfl rfl).symm k) = ix2 r k := funext fun a => Fin.ext (by
    match a with
    | ⟨0, _⟩ => exact lhsIdx_row _ _
    | ⟨1, _⟩ => exact (lhsIdx_col _ _).trans hk)
  have er : dot_S4096x128_S128x128_S4096x128_1_0_0_1_n_n.rhsIdx (ix2 r j) ((contrEquiv1 dot_S4096x128_S128x128_S4096x128_1_0_0_1_n_n 128 rfl rfl).symm k) = ix2 k j := funext fun a => Fin.ext (by
    match a with
    | ⟨0, _⟩ => exact (rhsIdx_row _ _).trans hk
    | ⟨1, _⟩ => exact rhsIdx_col _ _)
  rw [el, er]

/-- The sum over the 128 lanes, read at row r: the sum over k of the source at (r, k). -/
theorem laneSum_apply (src : FVec Ideal S4096x128 .f32) (h : S4096x128.Reduces [1] S4096) (hφ : FKind.Formats .f32)
    (hacc : (0x00000000#32 : BitVec 32) = 0x00000000#32) (r : Fin 4096) :
    multiReduction (F := Ideal) .add [1] S4096 src 0x00000000#32 h hφ hacc (ix1 r) = ∑ k : Fin 128, src (ix2 r k) := by
  refine (Ideal.multiReduction_add_single src 0x00000000#32 h hφ hacc (ix1 r)).trans ?_
  refine Finset.sum_congr rfl fun k _ => ?_
  exact congrArg src (funext fun a => Fin.ext (by match a with | ⟨0, _⟩ => rfl | ⟨1, _⟩ => rfl))

/-! ## The logistic and the reciprocal root at an index: the extended reals' own, entry by entry -/

theorem logistic_apply {s : Shape} {φ : FTy} (a : FVec Ideal s φ) (i : s.Idx) : logistic a i = Ideal.logistic (a i) := rfl
theorem rsqrt_apply {s : Shape} {φ : FTy} (a : FVec Ideal s φ) (i : s.Idx) : rsqrt a i = Ideal.rsqrt (a i) := rfl

/-! ## The four payloads at an index -/

/-- The two linear layers with SiLU between them, at (r, j): the specification's second linear layer of the
    activation of the first, on rows r of the three feature tiles. -/
theorem pay2_apply (x0 : Vec Ideal S4096x128 .f32) (x1 x2 : Vec Ideal S4096x128 .bf16) (we ws wd : Vec Ideal S128x128 .f32)
    (b1 : Vec Ideal S128 .f32) (w2 : Vec Ideal S128x128 .f32) (b2 : Vec Ideal S128 .f32) (r : Fin 4096) (j : Fin 128) :
    k0_pay2 (F := Ideal) x0 x1 x2 we ws wd b1 w2 b2 (ix2 r j)
      = lin2 (act (pre (fun k => x0 (ix2 r k)) (fun k => x1 (ix2 r k)) (fun k => x2 (ix2 r k)) we ws wd b1)) w2 b2 j := by
  unfold k0_pay2
  simp only [shapeCast_self, addf_apply, matmulZero_apply, rowBroadcast_apply, truncf_apply, mulf_apply, logistic_apply]
  rfl

/-- The row sums kept as a column, at (r, u): the sum over the 128 lanes of the second linear layer's row r. -/
theorem pay3_apply (x0 : Vec Ideal S4096x128 .f32) (x1 x2 : Vec Ideal S4096x128 .bf16) (we ws wd : Vec Ideal S128x128 .f32)
    (b1 : Vec Ideal S128 .f32) (w2 : Vec Ideal S128x128 .f32) (b2 : Vec Ideal S128 .f32) (r : Fin 4096) (u : Fin 1) :
    k0_pay3 (F := Ideal) x0 x1 x2 we ws wd b1 w2 b2 (ix2 r u)
      = ∑ k : Fin 128, k0_pay2 (F := Ideal) x0 x1 x2 we ws wd b1 w2 b2 (ix2 r k) := by
  unfold k0_pay3
  exact (colCast_apply _ _ r u).trans (laneSum_apply _ _ _ _ r)

/-- The splat of the float word for 128, at any index. -/
theorem pay4_apply (i : S4096x1.Idx) : k0_pay4 (F := Ideal) i = Ideal.ofBits .f32 0x43000000#32 := rfl

/-- LayerNorm and the residual, at (r, j), of any tile y with any column s of sums and any column n of divisors:
    y centred by s / n at row r, scaled by the reciprocal root of the mean square of the centred row plus ε, then
    the affine map and the edge's own feature. -/
theorem pay1_apply (x0 : Vec Ideal S4096x128 .f32) (y : FVec Ideal S4096x128 .f32) (s n : FVec Ideal S4096x1 .f32)
    (g be : Vec Ideal S128 .f32) (r : Fin 4096) (j : Fin 128) :
    k0_pay1 (F := Ideal) x0 y s n g be (ix2 r j)
      = (((y (ix2 r j) - Ideal.div (s (ix2 r (0 : Fin 1))) (n (ix2 r (0 : Fin 1))))
            * Ideal.rsqrt (Ideal.div (∑ k : Fin 128, (y (ix2 r k) - Ideal.div (s (ix2 r (0 : Fin 1))) (n (ix2 r (0 : Fin 1))))
                  * (y (ix2 r k) - Ideal.div (s (ix2 r (0 : Fin 1))) (n (ix2 r (0 : Fin 1)))))
                (Ideal.ofBits .f32 0x43000000#32) + Ideal.ofBits .f32 0x3727C5AC#32))
          * g (ix1 j) + be (ix1 j)) + x0 (ix2 r j) := by
  unfold k0_pay1
  simp only [addf_apply, mulf_apply, subf_apply, divf_apply, rsqrt_apply, rowBroadcast_apply, colBroadcast_apply,
    colCast_apply, broadcast_apply]
  rw [laneSum_apply]
  simp only [mulf_apply, subf_apply, divf_apply, colBroadcast_apply]
  rfl

/-! ## The stored tile -/

/-- The value the body stores is the edge update of the three loaded feature tiles. -/
theorem stored_eq_G (x0 : Vec Ideal S4096x128 .f32) (x1 x2 : Vec Ideal S4096x128 .bf16) (we ws wd : Vec Ideal S128x128 .f32)
    (b1 : Vec Ideal S128 .f32) (w2 : Vec Ideal S128x128 .f32) (b2 g be : Vec Ideal S128 .f32) :
    k0_pay1 (F := Ideal) x0 (k0_pay2 x0 x1 x2 we ws wd b1 w2 b2) (k0_pay3 x0 x1 x2 we ws wd b1 w2 b2) (k0_pay4 (F := Ideal)) g be
      = G (n := 4096) x0 x1 x2 we ws wd b1 w2 b2 g be := by
  funext i
  obtain ⟨r, j, rfl⟩ : ∃ (r : Fin 4096) (j : Fin 128), i = ix2 r j := ⟨i 0, i 1, eq_ix2 i⟩
  rw [pay1_apply, G_apply]
  simp only [pay3_apply, pay4_apply, pay2_apply]
  rfl

/-- So at (r, j) it is the specification's row function of rows r of the three tiles. -/
theorem stored_apply (x0 : Vec Ideal S4096x128 .f32) (x1 x2 : Vec Ideal S4096x128 .bf16) (we ws wd : Vec Ideal S128x128 .f32)
    (b1 : Vec Ideal S128 .f32) (w2 : Vec Ideal S128x128 .f32) (b2 g be : Vec Ideal S128 .f32) (r : Fin 4096) (j : Fin 128) :
    k0_pay1 (F := Ideal) x0 (k0_pay2 x0 x1 x2 we ws wd b1 w2 b2) (k0_pay3 x0 x1 x2 we ws wd b1 w2 b2) (k0_pay4 (F := Ideal)) g be (ix2 r j)
      = rowOut (fun k => x0 (ix2 r k)) (fun k => x1 (ix2 r k)) (fun k => x2 (ix2 r k)) we ws wd b1 w2 b2 g be j := by
  rw [stored_eq_G, G_apply]

/-- Row r of the stored tile reads only rows r of the three feature tiles: two triples of tiles that agree on row r
    (whatever their other rows hold) give stored tiles that agree on row r. -/
theorem stored_row_congr (x0 y0 : Vec Ideal S4096x128 .f32) (x1 x2 y1 y2 : Vec Ideal S4096x128 .bf16)
    (we ws wd : Vec Ideal S128x128 .f32) (b1 : Vec Ideal S128 .f32) (w2 : Vec Ideal S128x128 .f32) (b2 g be : Vec Ideal S128 .f32)
    (r : Fin 4096) (h0 : ∀ k : Fin 128, x0 (ix2 r k) = y0 (ix2 r k)) (h1 : ∀ k : Fin 128, x1 (ix2 r k) = y1 (ix2 r k))
    (h2 : ∀ k : Fin 128, x2 (ix2 r k) = y2 (ix2 r k)) (j : Fin 128) :
    k0_pay1 (F := Ideal) x0 (k0_pay2 x0 x1 x2 we ws wd b1 w2 b2) (k0_pay3 x0 x1 x2 we ws wd b1 w2 b2) (k0_pay4 (F := Ideal)) g be (ix2 r j)
      = k0_pay1 (F := Ideal) y0 (k0_pay2 y0 y1 y2 we ws wd b1 w2 b2) (k0_pay3 y0 y1 y2 we ws wd b1 w2 b2) (k0_pay4 (F := Ideal)) g be (ix2 r j) := by
  rw [stored_apply, stored_apply, funext h0, funext h1, funext h2]

end Cert.EdgeUpdate.Pay

end
-- ==== Proof.TileIdeal.lean ====
/-
  What the kernel leaves in the result array, at the ideal instance: `G` of the arrays the region finds.

  Point `t` of the grid works on edges 4096·t … 4096·t + 4095; the last point's tile overhangs the 500000-row
  array, and only its 288 rows inside the array are fetched and written back. Row `r` of the tile the body computes
  depends on rows `r` of the three per-edge input tiles only (and on the parameters), so on the rows inside the array
  the computed tile is block `t` of one whole-array function — `G` of the arrays as the region finds them — whatever
  the per-edge buffers hold past the array's end. The 123 blocks cover the array (edge `r` is in block `r / 4096`), so
  the array ends holding that function.
-/
import proofs.«139852_j84104049590405_2_alg».proof.Proof.RunIdeal
import proofs.«139852_j84104049590405_2_alg».proof.Proof.KernelPay
import proofs.«139852_j84104049590405_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.EdgeUpdate

/-! ## The buffer after the body is the stored tile -/

theorem hz2 : (![0, 0] : Fin 2 → Nat) = fun _ => 0 := funext fun a => by fin_cases a <;> rfl
theorem hz1 : (![0] : Fin 1 → Nat) = fun _ => 0 := funext fun a => by fin_cases a; rfl

/-- One store through the whole buffer leaves its payload, and a load through a whole buffer reads its contents:
    the buffer after the body holds the stored tile of the buffers' contents (at any float instance). -/
theorem outBuf_eq {F : FTy → Type} [FloatOps F] (x0 : Vec F S4096x128 .f32) (x1 : Vec F S4096x128 .bf16) (x2 : Vec F S4096x128 .bf16) (x3 : Vec F S128x128 .f32) (x4 : Vec F S128x128 .f32) (x5 : Vec F S128x128 .f32) (x6 : Vec F S128 .f32) (x7 : Vec F S128x128 .f32) (x8 : Vec F S128 .f32) (x9 : Vec F S128 .f32) (x10 : Vec F S128 .f32) :
    outBuf x0 x1 x2 x3 x4 x5 x6 x7 x8 x9 x10 = stored x0 x1 x2 x3 x4 x5 x6 x7 x8 x9 x10 := by
  unfold outBuf stored
  rw [View.canon_unit_zero hz2]
  simp only [View.ld_unit_zero (S := S4096x128) hz2, View.ld_unit_zero (S := S128x128) hz2, View.ld_unit_zero (S := S128) hz1]

variable (m : (ℓ : Loc nD τ sig) → Buf (Elt Ideal) ℓ) (ρ : Dev nD → PrngReg)

/-! ## The result, and the tile named at each point -/

/-- The whole result on core `c`: `G` of the arrays as the region finds them — the edge features, the two arrays of
    gathered node rows, the three bands of the first weight matrix, and the seven other parameters. -/
def resultOn (c : Dev nD) : S500000x128.Idx → EReal :=
  G (n := 500000) (V m c main_arg0) (V m c main_v7) (V m c main_v14) (V m c main_v15) (V m c main_v16) (V m c main_v17)
    (V m c main_arg5) (V m c main_arg6) (V m c main_arg7) (V m c main_arg8) (V m c main_arg9)

/-- The tile named at point `t`: block `t` of the result on the rows inside the array, zero past them. -/
def tile (c : Dev nD) (t : Fin cfg0.N) : Vec Ideal S4096x128 .f32 :=
  win0_11.fill (grid0.coords t) (fun _ => (0 : EReal)) ((win0_11.blk t).view.read (Elt Ideal) (resultOn m c))

/-! ## The schedule's arithmetic, decided over the 123 points -/

/-- The per-edge windows and the result's window are at block `t` on the edge axis and block 0 on the feature axis;
    they are cut alike; the feature axis is never cut; the cut tile ends inside the array, and is whole unless it
    ends exactly at the array's end. -/
theorem grid_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0
    ∧ win0_0.xsize (grid0.coords t) (0 : Fin 2) = win0_11.xsize (grid0.coords t) (0 : Fin 2)
    ∧ win0_1.xsize (grid0.coords t) (0 : Fin 2) = win0_11.xsize (grid0.coords t) (0 : Fin 2)
    ∧ win0_2.xsize (grid0.coords t) (0 : Fin 2) = win0_11.xsize (grid0.coords t) (0 : Fin 2)
    ∧ win0_0.xsize (grid0.coords t) (1 : Fin 2) = 128 ∧ win0_1.xsize (grid0.coords t) (1 : Fin 2) = 128
    ∧ win0_2.xsize (grid0.coords t) (1 : Fin 2) = 128 ∧ win0_11.xsize (grid0.coords t) (1 : Fin 2) = 128
    ∧ t.val * 4096 + win0_11.xsize (grid0.coords t) (0 : Fin 2) ≤ 500000
    ∧ (win0_11.xsize (grid0.coords t) (0 : Fin 2) = 4096 ∨ t.val * 4096 + win0_11.xsize (grid0.coords t) (0 : Fin 2) = 500000) :=
  (by decide +kernel : ∀ t : Fin grid0.N, _)

/-- The parameter windows sit at block 0 on every axis, at every point. -/
theorem param_facts : ∀ t : Fin cfg0.N,
    win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0 ∧ win0_8.index t (0 : Fin 1) = 0
    ∧ win0_9.index t (0 : Fin 1) = 0 ∧ win0_10.index t (0 : Fin 1) = 0 :=
  (by decide +kernel : ∀ t : Fin grid0.N, _)

/-! ## A parameter window's block is its whole array -/

theorem iblk_3 (c : Dev nD) (t : Fin cfg0.N) : iblk m c 3 t = V m c main_v15 := by
  have pf := param_facts t
  funext y
  show V m c main_v15 (((cfg0.win 3).blk t).view.emb y) = V m c main_v15 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem iblk_4 (c : Dev nD) (t : Fin cfg0.N) : iblk m c 4 t = V m c main_v16 := by
  have pf := param_facts t
  funext y
  show V m c main_v16 (((cfg0.win 4).blk t).view.emb y) = V m c main_v16 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega
theorem iblk_5 (c : Dev nD) (t : Fin cfg0.N) : iblk m c 5 t = V m c main_v17 := by
  have pf := param_facts t
  funext y
  show V m c main_v17 (((cfg0.win 5).blk t).view.emb y) = V m c main_v17 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega
theorem iblk_7 (c : Dev nD) (t : Fin cfg0.N) : iblk m c 7 t = V m c main_arg6 := by
  have pf := param_facts t
  funext y
  show V m c main_arg6 (((cfg0.win 7).blk t).view.emb y) = V m c main_arg6 y
  refine congrArg _ (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega
theorem iblk_6 (c : Dev nD) (t : Fin cfg0.N) : iblk m c 6 t = V m c main_arg5 := by
  have pf := param_facts t
  funext y
  show V m c main_arg5 (((cfg0.win 6).blk t).view.emb y) = V m c main_arg5 y
  refine congrArg _ (funext fun a => Fin.ext ?_)
  match a with
  | ⟨0, _⟩ => show win0_6.index t (0 : Fin 1) * 128 + 1 * (y 0).val = (y 0).val; omega
theorem iblk_8 (c : Dev nD) (t : Fin cfg0.N) : iblk m c 8 t = V m c main_arg7 := by
  have pf := param_facts t
  funext y
  show V m c main_arg7 (((cfg0.win 8).blk t).view.emb y) = V m c main_arg7 y
  refine congrArg _ (funext fun a => Fin.ext ?_)
  match a with
  | ⟨0, _⟩ => show win0_8.index t (0 : Fin 1) * 128 + 1 * (y 0).val = (y 0).val; omega
theorem iblk_9 (c : Dev nD) (t : Fin cfg0.N) : iblk m c 9 t = V m c main_arg8 := by
  have pf := param_facts t
  funext y
  show V m c main_arg8 (((cfg0.win 9).blk t).view.emb y) = V m c main_arg8 y
  refine congrArg _ (funext fun a => Fin.ext ?_)
  match a with
  | ⟨0, _⟩ => show win0_9.index t (0 : Fin 1) * 128 + 1 * (y 0).val = (y 0).val; omega
theorem iblk_10 (c : Dev nD) (t : Fin cfg0.N) : iblk m c 10 t = V m c main_arg9 := by
  have pf := param_facts t
  funext y
  show V m c main_arg9 (((cfg0.win 10).blk t).view.emb y) = V m c main_arg9 y
  refine congrArg _ (funext fun a => Fin.ext ?_)
  match a with
  | ⟨0, _⟩ => show win0_10.index t (0 : Fin 1) * 128 + 1 * (y 0).val = (y 0).val; omega

/-! ## A row of a per-edge buffer, inside the array, is the array's row -/

theorem row_0 (c : Dev nD) (t : Fin cfg0.N) (d : S4096x128.Idx → Elt Ideal .f32) (r : Fin 4096)
    (hr : r.val < win0_11.xsize (grid0.coords t) (0 : Fin 2)) (hb : t.val * 4096 + r.val < 500000) (k : Fin 128) :
    win0_0.fill (grid0.coords t) d (iblk m c 0 t) (ix2 r k) = V m c main_arg0 (ix2 ⟨t.val * 4096 + r.val, hb⟩ k) := by
  have gf := grid_facts t
  have hmv : win0_0.moved (grid0.coords t) (ix2 r k) = true := (win0_0.moved_iff _ _).mpr fun a => by
    match a with
    | ⟨0, _⟩ => show r.val < win0_0.xsize (grid0.coords t) (0 : Fin 2); omega
    | ⟨1, _⟩ => show k.val < win0_0.xsize (grid0.coords t) (1 : Fin 2); have := k.isLt; omega
  unfold Window.fill; rw [dif_pos hmv]
  show V m c main_arg0 (((cfg0.win 0).blk t).view.emb _) = _
  refine congrArg _ (funext fun a => Fin.ext ?_)
  match a with
  | ⟨0, _⟩ => show win0_0.index t (0 : Fin 2) * 4096 + 1 * r.val = t.val * 4096 + r.val; omega
  | ⟨1, _⟩ => show win0_0.index t (1 : Fin 2) * 128 + 1 * k.val = k.val; omega
theorem row_1 (c : Dev nD) (t : Fin cfg0.N) (d : S4096x128.Idx → Elt Ideal .bf16) (r : Fin 4096)
    (hr : r.val < win0_11.xsize (grid0.coords t) (0 : Fin 2)) (hb : t.val * 4096 + r.val < 500000) (k : Fin 128) :
    win0_1.fill (grid0.coords t) d (iblk m c 1 t) (ix2 r k) = V m c main_v7 (ix2 ⟨t.val * 4096 + r.val, hb⟩ k) := by
  have gf := grid_facts t
  have hmv : win0_1.moved (grid0.coords t) (ix2 r k) = true := (win0_1.moved_iff _ _).mpr fun a => by
    match a with
    | ⟨0, _⟩ => show r.val < win0_1.xsize (grid0.coords t) (0 : Fin 2); omega
    | ⟨1, _⟩ => show k.val < win0_1.xsize (grid0.coords t) (1 : Fin 2); have := k.isLt; omega
  unfold Window.fill; rw [dif_pos hmv]
  show V m c main_v7 (((cfg0.win 1).blk t).view.emb _) = _
  refine congrArg _ (funext fun a => Fin.ext ?_)
  match a with
  | ⟨0, _⟩ => show win0_1.index t (0 : Fin 2) * 4096 + 1 * r.val = t.val * 4096 + r.val; omega
  | ⟨1, _⟩ => show win0_1.index t (1 : Fin 2) * 128 + 1 * k.val = k.val; omega
theorem row_2 (c : Dev nD) (t : Fin cfg0.N) (d : S4096x128.Idx → Elt Ideal .bf16) (r : Fin 4096)
    (hr : r.val < win0_11.xsize (grid0.coords t) (0 : Fin 2)) (hb : t.val * 4096 + r.val < 500000) (k : Fin 128) :
    win0_2.fill (grid0.coords t) d (iblk m c 2 t) (ix2 r k) = V m c main_v14 (ix2 ⟨t.val * 4096 + r.val, hb⟩ k) := by
  have gf := grid_facts t
  have hmv : win0_2.moved (grid0.coords t) (ix2 r k) = true := (win0_2.moved_iff _ _).mpr fun a => by
    match a with
    | ⟨0, _⟩ => show r.val < win0_2.xsize (grid0.coords t) (0 : Fin 2); omega
    | ⟨1, _⟩ => show k.val < win0_2.xsize (grid0.coords t) (1 : Fin 2); have := k.isLt; omega
  unfold Window.fill; rw [dif_pos hmv]
  show V m c main_v14 (((cfg0.win 2).blk t).view.emb _) = _
  refine congrArg _ (funext fun a => Fin.ext ?_)
  match a with
  | ⟨0, _⟩ => show win0_2.index t (0 : Fin 2) * 4096 + 1 * r.val = t.val * 4096 + r.val; omega
  | ⟨1, _⟩ => show win0_2.index t (1 : Fin 2) * 128 + 1 * k.val = k.val; omega

/-! ## On the rows inside the array the computed tile is the named one -/

theorem tile_cut (c : Dev nD) (t : Fin cfg0.N) (d0 : S4096x128.Idx → Elt Ideal .f32) (d1 d2 : S4096x128.Idx → Elt Ideal .bf16) :
    win0_11.cut (grid0.coords t) (tileAt m c t d0 d1 d2) = win0_11.cut (grid0.coords t) (tile m c t) := by
  rw [show win0_11.cut (grid0.coords t) (tile m c t) = (win0_11.blk t).view.read (Elt Ideal) (resultOn m c) from
    win0_11.cut_fill _ _ _]
  have gf := grid_facts t
  funext j
  have hj0 : (j 0).val < win0_11.xsize (grid0.coords t) (0 : Fin 2) := (j 0).isLt
  have hj1' : (j 1).val < win0_11.xsize (grid0.coords t) (1 : Fin 2) := (j 1).isLt
  have hj1 : (j 1).val < 128 := by omega
  have hr : (j 0).val < 4096 := by
    have := win0_11.xsize_le (grid0.coords t) (0 : Fin 2)
    have e : win0_11.size (0 : Fin 2) = 4096 := rfl
    omega
  have hb : t.val * 4096 + (j 0).val < 500000 := by omega
  have hL : win0_11.xinj (grid0.coords t) j = ix2 (⟨(j 0).val, hr⟩ : Fin 4096) (⟨(j 1).val, hj1⟩ : Fin 128) :=
    funext fun a => Fin.ext (by match a with | ⟨0, _⟩ => rfl | ⟨1, _⟩ => rfl)
  have hR : (win0_11.blk t).view.emb j = ix2 (⟨t.val * 4096 + (j 0).val, hb⟩ : Fin 500000) (⟨(j 1).val, hj1⟩ : Fin 128) :=
    funext fun a => Fin.ext (by
      match a with
      | ⟨0, _⟩ => show win0_11.index t (0 : Fin 2) * 4096 + 1 * (j 0).val = t.val * 4096 + (j 0).val; omega
      | ⟨1, _⟩ => show win0_11.index t (1 : Fin 2) * 128 + 1 * (j 1).val = (j 1).val; omega)
  show tileAt m c t d0 d1 d2 (win0_11.xinj (grid0.coords t) j) = resultOn m c ((win0_11.blk t).view.emb j)
  rw [hL, hR]
  unfold tileAt
  rw [outBuf_eq]
  unfold stored
  rw [Cert.EdgeUpdate.Pay.stored_apply]
  unfold resultOn
  rw [G_apply, iblk_3, iblk_4, iblk_5, iblk_6, iblk_7, iblk_8, iblk_9, iblk_10]
  rw [show (fun k => win0_0.fill (grid0.coords t) d0 (iblk m c 0 t) (ix2 (⟨(j 0).val, hr⟩ : Fin 4096) k))
        = fun k => V m c main_arg0 (ix2 (⟨t.val * 4096 + (j 0).val, hb⟩ : Fin 500000) k) from
      funext fun k => row_0 m c t d0 ⟨(j 0).val, hr⟩ hj0 hb k,
    show (fun k => win0_1.fill (grid0.coords t) d1 (iblk m c 1 t) (ix2 (⟨(j 0).val, hr⟩ : Fin 4096) k))
        = fun k => V m c main_v7 (ix2 (⟨t.val * 4096 + (j 0).val, hb⟩ : Fin 500000) k) from
      funext fun k => row_1 m c t d1 ⟨(j 0).val, hr⟩ hj0 hb k,
    show (fun k => win0_2.fill (grid0.coords t) d2 (iblk m c 2 t) (ix2 (⟨(j 0).val, hr⟩ : Fin 4096) k))
        = fun k => V m c main_v14 (ix2 (⟨t.val * 4096 + (j 0).val, hb⟩ : Fin 500000) k) from
      funext fun k => row_2 m c t d2 ⟨(j 0).val, hr⟩ hj0 hb k]

end Cert.KernelIdeal.Hand

end
-- ==== Proof.RefValue.lean ====
/-
  The reference computes the edge update `G`.

  Read at row `r` and column `j`, the reference's result is, stage by stage, the row function of the specification:
    * the contraction of the joined row `[e | s | d]` (384 entries) with the whole first weight matrix is the sum of the
      three 128-term contractions of `e`, `s`, `d` with the matrix's three bands of rows — a sum over 384 consecutive
      positions split into its three runs of 128, which uses only that addition on the extended reals is associative
      (`sum_three_bands`, `dot1_at`); with the bias this is `pre`;
    * `x · (1 / (1 + e^(−x)))`, with `1` the float word of one, is `x · logistic x`: `act`;
    * the second contraction plus its bias is `lin2`;
    * a row sum started from the float word of zero and divided by the float word of 128 is `mean`; the centred row,
      the mean of its squares plus ε, the reciprocal root, the affine map and the residual are `norm … + e`.
  The float words of 128 and of ε are never evaluated, and the two gathers are never read at an index: they stay the
  terms the reference has for them, on both sides of the equation.
-/
import proofs.«139852_j84104049590405_2_alg».proof.Proof.Spec
import proofs.«139852_j84104049590405_2_alg».proof.Proof.Gen.ReferenceIdeal.Read
import Idealize.ShloMosaic.Lib.IdealHost

noncomputable section

open scoped BigOperators

namespace Cert.EdgeUpdate.Ref

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Read

/-- A sum over 384 consecutive positions is the sum over its three runs of 128, in order. Only the associativity of
    addition is used. -/
theorem sum_three_bands {M : Type*} [AddCommMonoid M] (f : Fin 384 → M) :
    ∑ k : Fin 384, f k
      = ((∑ k : Fin 128, f ⟨k.val, by omega⟩) + (∑ k : Fin 128, f ⟨128 + k.val, by omega⟩))
        + (∑ k : Fin 128, f ⟨256 + k.val, by omega⟩) := by
  have h1 : ∑ k : Fin (128 + 128 + 128), f k
      = (∑ k : Fin (128 + 128), f (Fin.castAdd 128 k)) + ∑ k : Fin 128, f (Fin.natAdd (128 + 128) k) :=
    Fin.sum_univ_add (fun k : Fin (128 + 128 + 128) => f k)
  have h2 : ∑ k : Fin (128 + 128), f (Fin.castAdd 128 k)
      = (∑ k : Fin 128, f (Fin.castAdd 128 (Fin.castAdd 128 k))) + ∑ k : Fin 128, f (Fin.castAdd 128 (Fin.natAdd 128 k)) :=
    Fin.sum_univ_add (fun k : Fin (128 + 128) => f (Fin.castAdd 128 k))
  rw [h2] at h1
  exact h1

/-- The row of 384 that the three arrays laid side by side hold for edge `r`: position `k` of the first run is the first
    array's entry, and so on. -/
theorem cat_first (x y z : S500000x128.Idx → EReal) (r : Fin 500000) (k : Fin 128) :
    concatenate S500000x384 1 [⟨S500000x128, x⟩, ⟨S500000x128, y⟩, ⟨S500000x128, z⟩]
        concatenates_S500000x128_S500000x128_S500000x128_S500000x384_d1 (ix2 r (⟨k.val, by omega⟩ : Fin 384)) = x (ix2 r k) :=
  concatenate_apply_piece (1 : Fin S500000x384.rank) _ _ (ix2 r (⟨k.val, by omega⟩ : Fin 384)) 0 (by simp) S500000x128 x rfl rfl 0 rfl
    (ix2 r k) (fun b hb => by match b with | ⟨0, _⟩ => rfl | ⟨1, _⟩ => exact absurd rfl hb) (Nat.zero_add _)

theorem cat_second (x y z : S500000x128.Idx → EReal) (r : Fin 500000) (k : Fin 128) :
    concatenate S500000x384 1 [⟨S500000x128, x⟩, ⟨S500000x128, y⟩, ⟨S500000x128, z⟩]
        concatenates_S500000x128_S500000x128_S500000x128_S500000x384_d1 (ix2 r (⟨128 + k.val, by omega⟩ : Fin 384)) = y (ix2 r k) :=
  concatenate_apply_piece (1 : Fin S500000x384.rank) _ _ (ix2 r (⟨128 + k.val, by omega⟩ : Fin 384)) 1 (by simp) S500000x128 y rfl rfl 128 rfl
    (ix2 r k) (fun b hb => by match b with | ⟨0, _⟩ => rfl | ⟨1, _⟩ => exact absurd rfl hb) rfl

theorem cat_third (x y z : S500000x128.Idx → EReal) (r : Fin 500000) (k : Fin 128) :
    concatenate S500000x384 1 [⟨S500000x128, x⟩, ⟨S500000x128, y⟩, ⟨S500000x128, z⟩]
        concatenates_S500000x128_S500000x128_S500000x128_S500000x384_d1 (ix2 r (⟨256 + k.val, by omega⟩ : Fin 384)) = z (ix2 r k) :=
  concatenate_apply_piece (1 : Fin S500000x384.rank) _ _ (ix2 r (⟨256 + k.val, by omega⟩ : Fin 384)) 2 (by simp) S500000x128 z rfl rfl 256 rfl
    (ix2 r k) (fun b hb => by match b with | ⟨0, _⟩ => rfl | ⟨1, _⟩ => exact absurd rfl hb) rfl

/-! ## Index bookkeeping: the index functions the reference's operations are read through, at an index given by its
    coordinates -/

theorem lidx15 (r : Fin 500000) (j : Fin 128) (k : Fin 384) : lidx_main_v15 (ix2 r j) k = ix2 r k :=
  funext fun a => by match a with | ⟨0, _⟩ => rfl | ⟨1, _⟩ => rfl
theorem lidx20 (r : Fin 500000) (j : Fin 128) (k : Fin 128) : lidx_main_v20 (ix2 r j) k = ix2 r k :=
  funext fun a => by match a with | ⟨0, _⟩ => rfl | ⟨1, _⟩ => rfl
theorem ridx20 (r : Fin 500000) (j : Fin 128) (k : Fin 128) : ridx_main_v20 (ix2 r j) k = ix2 k j :=
  funext fun a => by match a with | ⟨0, _⟩ => rfl | ⟨1, _⟩ => rfl
theorem idx1617 (r : Fin 500000) (j : Fin 128) : idx_main_v16 (idx_main_v17 (ix2 r j)) = ix1 j :=
  funext fun a => by match a with | ⟨0, _⟩ => rfl
theorem idx2122 (r : Fin 500000) (j : Fin 128) : idx_main_v21 (idx_main_v22 (ix2 r j)) = ix1 j :=
  funext fun a => by match a with | ⟨0, _⟩ => rfl
theorem idx4243 (r : Fin 500000) (j : Fin 128) : idx_main_v42 (idx_main_v43 (ix2 r j)) = ix1 j :=
  funext fun a => by match a with | ⟨0, _⟩ => rfl
theorem idx4546 (r : Fin 500000) (j : Fin 128) : idx_main_v45 (idx_main_v46 (ix2 r j)) = ix1 j :=
  funext fun a => by match a with | ⟨0, _⟩ => rfl
theorem idx2425 (r : Fin 500000) (c : Fin 1) (k : Fin 128) : idx_main_v24 (idx_main_v25 (ix2 r c)) k = ix2 r k :=
  funext fun a => by match a with | ⟨0, _⟩ => rfl | ⟨1, _⟩ => rfl
theorem idx3132 (r : Fin 500000) (c : Fin 1) (k : Fin 128) : idx_main_v31 (idx_main_v32 (ix2 r c)) k = ix2 r k :=
  funext fun a => by match a with | ⟨0, _⟩ => rfl | ⟨1, _⟩ => rfl
theorem idx28 (r : Fin 500000) (j : Fin 128) : idx_main_v28 (ix2 r j) = ix2 r (0 : Fin 1) :=
  funext fun a => by match a with | ⟨0, _⟩ => rfl | ⟨1, _⟩ => rfl
theorem idx35 (r : Fin 500000) (j : Fin 128) : idx_main_v35 (ix2 r j) = ix2 r (0 : Fin 1) :=
  funext fun a => by match a with | ⟨0, _⟩ => rfl | ⟨1, _⟩ => rfl
theorem idx40 (r : Fin 500000) (j : Fin 128) : idx_main_v40 (ix2 r j) = ix2 r (0 : Fin 1) :=
  funext fun a => by match a with | ⟨0, _⟩ => rfl | ⟨1, _⟩ => rfl

/-- The weight matrix at the row `off + k` the contraction reaches in the band that starts at `off`. -/
theorem ridx15_band (w : S384x128.Idx → EReal) (off : Nat) (h : off + 128 ≤ 384) (r : Fin 500000) (j k : Fin 128) :
    w (ridx_main_v15 (ix2 r j) (⟨off + k.val, by omega⟩ : Fin 384)) = band w off h (ix2 k j) :=
  congrArg w (funext fun a => by match a with | ⟨0, _⟩ => rfl | ⟨1, _⟩ => rfl)
theorem ridx15_band0 (w : S384x128.Idx → EReal) (h : 0 + 128 ≤ 384) (r : Fin 500000) (j k : Fin 128) :
    w (ridx_main_v15 (ix2 r j) (⟨k.val, by omega⟩ : Fin 384)) = band w 0 h (ix2 k j) :=
  congrArg w (funext fun a => by
    match a with
    | ⟨0, _⟩ => exact Fin.ext (Nat.zero_add k.val).symm
    | ⟨1, _⟩ => rfl)

/-! ## The one law: the product of the joined row with the whole weight matrix is the sum of the three bands' products -/

theorem dot1_at (x y z : S500000x128.Idx → EReal) (w : S384x128.Idx → EReal) (r : Fin 500000) (j : Fin 128) :
    ∑ k : Fin 384, concatenate S500000x384 1 [⟨S500000x128, x⟩, ⟨S500000x128, y⟩, ⟨S500000x128, z⟩]
        concatenates_S500000x128_S500000x128_S500000x128_S500000x384_d1 (lidx_main_v15 (ix2 r j) k) * w (ridx_main_v15 (ix2 r j) k)
      = ((∑ k : Fin 128, x (ix2 r k) * band w 0 (by norm_num) (ix2 k j))
          + (∑ k : Fin 128, y (ix2 r k) * band w 128 (by norm_num) (ix2 k j)))
        + (∑ k : Fin 128, z (ix2 r k) * band w 256 (by norm_num) (ix2 k j)) := by
  rw [sum_three_bands]
  refine congrArg₂ (· + ·) (congrArg₂ (· + ·) (Finset.sum_congr rfl fun k _ => ?_) (Finset.sum_congr rfl fun k _ => ?_))
    (Finset.sum_congr rfl fun k _ => ?_)
  · rw [lidx15, cat_first, ridx15_band0 w]
  · rw [lidx15, cat_second, ridx15_band w 128]
  · rw [lidx15, cat_third, ridx15_band w 256]

/-! ## The stages of the reference, each read at row `r`, column `j` -/

/-- The first linear layer: the 384-term contraction of the joined row, plus the bias, is `pre` of the three rows. -/
theorem pre_at (x0 : (⟨S500000x128, .f32⟩ : BufTy).Contents (Elt Ideal)) (x1 : (⟨S50000x128, .f32⟩ : BufTy).Contents (Elt Ideal)) (x2 x3 : (⟨S500000, .i32⟩ : BufTy).Contents (Elt Ideal)) (x4 : (⟨S384x128, .f32⟩ : BufTy).Contents (Elt Ideal)) (x5 : (⟨S128, .f32⟩ : BufTy).Contents (Elt Ideal)) (r : Fin 500000) (j : Fin 128) :
    val_main_v18 (F := Ideal) x0 x1 x2 x3 x4 x5 (ix2 r j)
      = pre (fun k => x0 (ix2 r k)) (fun k => val_main_v6 (F := Ideal) x1 x2 (ix2 r k)) (fun k => val_main_v13 (F := Ideal) x1 x3 (ix2 r k))
          (band x4 0 (by norm_num)) (band x4 128 (by norm_num)) (band x4 256 (by norm_num)) x5 j := by
  rw [val_main_v18_apply, val_main_v15_apply, val_main_v17_apply, val_main_v16_apply, idx1617]
  unfold val_main_v14
  rw [dot1_at]
  rfl

/-- SiLU as the reference spells it, `x · (1 / (1 + e^(−x)))` with the float word of one, is `x · logistic x`. -/
theorem act_at (x0 : (⟨S500000x128, .f32⟩ : BufTy).Contents (Elt Ideal)) (x1 : (⟨S50000x128, .f32⟩ : BufTy).Contents (Elt Ideal)) (x2 x3 : (⟨S500000, .i32⟩ : BufTy).Contents (Elt Ideal)) (x4 : (⟨S384x128, .f32⟩ : BufTy).Contents (Elt Ideal)) (x5 : (⟨S128, .f32⟩ : BufTy).Contents (Elt Ideal)) (r : Fin 500000) (j : Fin 128) :
    val_main_v19 (F := Ideal) x0 x1 x2 x3 x4 x5 (ix2 r j) = act (fun k => val_main_v18 (F := Ideal) x0 x1 x2 x3 x4 x5 (ix2 r k)) j := by
  rw [val_main_v19_apply, val_main_call0_v5_apply, val_main_call0_v4_apply, val_main_call0_cst_0_apply,
    val_main_call0_v3_apply, val_main_call0_v2_apply, val_main_call0_cst_apply, val_main_call0_v1_apply,
    val_main_call0_v0_apply, Ideal.ofBits_def, Ideal.ofBits_one_f32]
  rfl

/-- The second linear layer. -/
theorem lin2_at (x0 : (⟨S500000x128, .f32⟩ : BufTy).Contents (Elt Ideal)) (x1 : (⟨S50000x128, .f32⟩ : BufTy).Contents (Elt Ideal)) (x2 x3 : (⟨S500000, .i32⟩ : BufTy).Contents (Elt Ideal)) (x4 : (⟨S384x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (r : Fin 500000) (j : Fin 128) :
    val_main_v23 (F := Ideal) x0 x1 x2 x3 x4 x5 x6 x7 (ix2 r j) = lin2 (fun k => val_main_v19 (F := Ideal) x0 x1 x2 x3 x4 x5 (ix2 r k)) x6 x7 j := by
  rw [val_main_v23_apply, val_main_v20_apply, val_main_v22_apply, val_main_v21_apply, idx2122]
  refine congrArg₂ (· + ·) (Finset.sum_congr rfl fun k _ => ?_) rfl
  rw [lidx20, ridx20]

/-- The row mean (kept in a column of width one). -/
theorem mean_at (x0 : (⟨S500000x128, .f32⟩ : BufTy).Contents (Elt Ideal)) (x1 : (⟨S50000x128, .f32⟩ : BufTy).Contents (Elt Ideal)) (x2 x3 : (⟨S500000, .i32⟩ : BufTy).Contents (Elt Ideal)) (x4 : (⟨S384x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (r : Fin 500000) (c : Fin 1) :
    val_main_v27 (F := Ideal) x0 x1 x2 x3 x4 x5 x6 x7 (ix2 r c) = mean (fun k => val_main_v23 (F := Ideal) x0 x1 x2 x3 x4 x5 x6 x7 (ix2 r k)) := by
  rw [val_main_v27_apply, val_main_v25_apply, val_main_v24_apply, val_main_v26_apply, val_main_cst_3_apply,
    val_main_cst_apply, Ideal.ofBits_def, Ideal.ofBits_def, Ideal.ofBits_zero_f32, zero_add]
  refine congrArg (Ideal.div · _) (Finset.sum_congr rfl fun k _ => ?_)
  rw [idx2425]

/-- The centred row, as the variance reads it … -/
theorem cen_at (x0 : (⟨S500000x128, .f32⟩ : BufTy).Contents (Elt Ideal)) (x1 : (⟨S50000x128, .f32⟩ : BufTy).Contents (Elt Ideal)) (x2 x3 : (⟨S500000, .i32⟩ : BufTy).Contents (Elt Ideal)) (x4 : (⟨S384x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (r : Fin 500000) (j : Fin 128) :
    val_main_v29 (F := Ideal) x0 x1 x2 x3 x4 x5 x6 x7 (ix2 r j)
      = val_main_v23 (F := Ideal) x0 x1 x2 x3 x4 x5 x6 x7 (ix2 r j) - mean (fun k => val_main_v23 (F := Ideal) x0 x1 x2 x3 x4 x5 x6 x7 (ix2 r k)) := by
  rw [val_main_v29_apply, val_main_v28_apply, idx28, mean_at]
  rfl

/-- … and as the normalisation reads it (the reference broadcasts the mean twice). -/
theorem cen'_at (x0 : (⟨S500000x128, .f32⟩ : BufTy).Contents (Elt Ideal)) (x1 : (⟨S50000x128, .f32⟩ : BufTy).Contents (Elt Ideal)) (x2 x3 : (⟨S500000, .i32⟩ : BufTy).Contents (Elt Ideal)) (x4 : (⟨S384x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (r : Fin 500000) (j : Fin 128) :
    val_main_v36 (F := Ideal) x0 x1 x2 x3 x4 x5 x6 x7 (ix2 r j)
      = val_main_v23 (F := Ideal) x0 x1 x2 x3 x4 x5 x6 x7 (ix2 r j) - mean (fun k => val_main_v23 (F := Ideal) x0 x1 x2 x3 x4 x5 x6 x7 (ix2 r k)) := by
  rw [val_main_v36_apply, val_main_v35_apply, idx35, mean_at]
  rfl

/-- The variance: the mean of the squared centred row. -/
theorem var_at (x0 : (⟨S500000x128, .f32⟩ : BufTy).Contents (Elt Ideal)) (x1 : (⟨S50000x128, .f32⟩ : BufTy).Contents (Elt Ideal)) (x2 x3 : (⟨S500000, .i32⟩ : BufTy).Contents (Elt Ideal)) (x4 : (⟨S384x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (r : Fin 500000) (c : Fin 1) :
    val_main_v34 (F := Ideal) x0 x1 x2 x3 x4 x5 x6 x7 (ix2 r c)
      = mean (fun k => (val_main_v23 (F := Ideal) x0 x1 x2 x3 x4 x5 x6 x7 (ix2 r k) - mean (fun k => val_main_v23 (F := Ideal) x0 x1 x2 x3 x4 x5 x6 x7 (ix2 r k)))
          * (val_main_v23 (F := Ideal) x0 x1 x2 x3 x4 x5 x6 x7 (ix2 r k) - mean (fun k => val_main_v23 (F := Ideal) x0 x1 x2 x3 x4 x5 x6 x7 (ix2 r k)))) := by
  rw [val_main_v34_apply, val_main_v32_apply, val_main_v31_apply, val_main_v33_apply, val_main_cst_5_apply,
    val_main_cst_4_apply, Ideal.ofBits_def, Ideal.ofBits_def, Ideal.ofBits_zero_f32, zero_add]
  refine congrArg (Ideal.div · _) (Finset.sum_congr rfl fun k _ => ?_)
  rw [idx3132, val_main_v30_apply, cen_at]
  rfl

/-- LayerNorm, the affine map and the residual. -/
theorem out_at (x0 : (⟨S500000x128, .f32⟩ : BufTy).Contents (Elt Ideal)) (x1 : (⟨S50000x128, .f32⟩ : BufTy).Contents (Elt Ideal)) (x2 x3 : (⟨S500000, .i32⟩ : BufTy).Contents (Elt Ideal)) (x4 : (⟨S384x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128, .f32⟩ : BufTy).Contents (Elt Ideal)) (r : Fin 500000) (j : Fin 128) :
    val_main_v48 (F := Ideal) x0 x1 x2 x3 x4 x5 x6 x7 x8 x9 (ix2 r j)
      = norm (fun k => val_main_v23 (F := Ideal) x0 x1 x2 x3 x4 x5 x6 x7 (ix2 r k)) x8 x9 j + x0 (ix2 r j) := by
  rw [val_main_v48_apply, val_main_v47_apply, val_main_v44_apply, val_main_v41_apply, cen'_at, val_main_v40_apply, idx40,
    val_main_v39_apply, val_main_v38_apply, var_at, val_main_v37_apply, val_main_cst_6_apply, val_main_v43_apply,
    val_main_v42_apply, idx4243, val_main_v46_apply, val_main_v45_apply, idx4546]
  rfl

/-! ## The result -/

/-- **The reference computes `G`**: its result array, as a function of the argument arrays, is the edge update of the
    edge features, of the node features gathered at the source and at the target indices (the two gathers left as the
    reference prints them), of the three bands of the first weight matrix and of the remaining parameters. -/
theorem result_eq_G (a0 : (⟨S500000x128, .f32⟩ : BufTy).Contents (Elt Ideal)) (a1 : (⟨S50000x128, .f32⟩ : BufTy).Contents (Elt Ideal)) (a2 a3 : (⟨S500000, .i32⟩ : BufTy).Contents (Elt Ideal)) (a4 : (⟨S384x128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 a9 : (⟨S128, .f32⟩ : BufTy).Contents (Elt Ideal)) :
    val_main_v48 (F := Ideal) a0 a1 a2 a3 a4 a5 a6 a7 a8 a9
      = Cert.EdgeUpdate.G (n := 500000) a0 (val_main_v6 (F := Ideal) a1 a2) (val_main_v13 (F := Ideal) a1 a3)
          (Cert.EdgeUpdate.band a4 0 (by norm_num)) (Cert.EdgeUpdate.band a4 128 (by norm_num))
          (Cert.EdgeUpdate.band a4 256 (by norm_num)) a5 a6 a7 a8 a9 := by
  funext i
  obtain ⟨r, j, rfl⟩ : ∃ (r : Fin 500000) (j : Fin 128), i = ix2 r j := ⟨i 0, i 1, eq_ix2 i⟩
  rw [G_apply, out_at]
  unfold rowOut
  rw [show (fun k => val_main_v23 (F := Ideal) a0 a1 a2 a3 a4 a5 a6 a7 (ix2 r k))
        = lin2 (fun k => val_main_v19 (F := Ideal) a0 a1 a2 a3 a4 a5 (ix2 r k)) a6 a7 from funext (lin2_at a0 a1 a2 a3 a4 a5 a6 a7 r),
    show (fun k => val_main_v19 (F := Ideal) a0 a1 a2 a3 a4 a5 (ix2 r k))
        = act (fun k => val_main_v18 (F := Ideal) a0 a1 a2 a3 a4 a5 (ix2 r k)) from funext (act_at a0 a1 a2 a3 a4 a5 r),
    show (fun k => val_main_v18 (F := Ideal) a0 a1 a2 a3 a4 a5 (ix2 r k)) = _ from funext (pre_at a0 a1 a2 a3 a4 a5 r)]

/-- The same for the term the reference's run ends with: on every device, the result buffer's final contents are `G` of
    the argument buffers' launch contents. -/
theorem res_eq_G (m : (ℓ : Loc nD τ sig) → Buf (Elt Ideal) ℓ) (c : Dev nD) :
    Cert.ReferenceIdeal.Value.res_out0 (F := Ideal) m c
      = Cert.EdgeUpdate.G (n := 500000) (m ((c.tc : Thread nD τ).loc main_arg0))
          (val_main_v6 (F := Ideal) (m ((c.tc : Thread nD τ).loc main_arg1)) (m ((c.tc : Thread nD τ).loc main_arg2)))
          (val_main_v13 (F := Ideal) (m ((c.tc : Thread nD τ).loc main_arg1)) (m ((c.tc : Thread nD τ).loc main_arg3)))
          (Cert.EdgeUpdate.band (m ((c.tc : Thread nD τ).loc main_arg4)) 0 (by norm_num))
          (Cert.EdgeUpdate.band (m ((c.tc : Thread nD τ).loc main_arg4)) 128 (by norm_num))
          (Cert.EdgeUpdate.band (m ((c.tc : Thread nD τ).loc main_arg4)) 256 (by norm_num))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) :=
  (val_main_v48_eq (F := Ideal) m c).trans (result_eq_G _ _ _ _ _ _ _ _ _ _)

end Cert.EdgeUpdate.Ref

end
-- ==== Proof.FinalIdeal.lean ====
/-
  The result array after the run, as one function of the ARGUMENT arrays.

  The 123 write-backs cover the result array (edge `r` lies in block `r / 4096`, and the last block, cut at the array's
  end, still reaches row 499999), and each writes its block of one whole-array function, so the array ends holding
  that function of the arrays the region finds. Those are the arguments themselves, except five that host operations
  compute before the region: the two arrays of gathered node rows — the node table read at the source and the target
  indices, a negative index first moved up by the table's length; the table's change of float format before the
  gather is the identity on the extended reals — and the three 128-row bands of the first weight matrix.
-/
import proofs.«139852_j84104049590405_2_alg».proof.Proof.TileIdeal
import proofs.«139852_j84104049590405_2_alg».proof.Proof.RefValue
import Idealize.ShloMosaic.Lib.Pipeline.Value
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.EdgeUpdate

variable (m : (ℓ : Loc nD τ sig) → Buf (Elt Ideal) ℓ) (ρ : Dev nD → PrngReg)

/-! ## The write-backs cover the array -/

/-- What point `t` writes back is its block of the result. -/
theorem flushed_eq (c : Dev nD) (t : Fin cfg0.N) :
    (dats m (tile m) 0 c).flushed 11 t = ((cfg0.win 11).blk t).view.read (Elt Ideal) (resultOn m c) := by
  show (cfg0.win 11).cut (grid0.coords t) ((dats m (tile m) 0 c).after 11 t) = _
  rw [after_11]
  exact win0_11.cut_fill _ _ _

/-- An index of the array is in point `t`'s block iff each coordinate is in the block's range, cut at the array's end. -/
theorem mem_blk (t : Fin cfg0.N) (i : S500000x128.Idx) :
    i ∈ ((cfg0.win 11).blk t).view.set ↔ ∀ a : Fin 2, win0_11.index t a * S4096x128.size a ≤ (i a).val
      ∧ (i a).val < win0_11.index t a * S4096x128.size a + win0_11.xsize (grid0.coords t) a := by
  show i ∈ ((View.whole main_v18).slice (win0_11.rect t)).set ↔ _
  rw [View.set_slice_whole, Rect.mem_set_unit]
  exact Iff.rfl

/-- Every index of the array is in some point's block: edge `r` in block `r / 4096`. -/
theorem cover (i : S500000x128.Idx) :
    ∃ t : Fin cfg0.N, (cfg0.win 11).flush t = true ∧ i ∈ ((cfg0.win 11).blk t).view.set := by
  have hi0 : (i 0).val < 500000 := idx2_lt0 i
  have hi1 : (i 1).val < 128 := idx2_lt1 i
  have ht : (i 0).val / 4096 < cfg0.N := Nat.lt_of_lt_of_eq (by omega : (i 0).val / 4096 < 123) N_0.symm
  have gf := grid_facts ⟨(i 0).val / 4096, ht⟩
  have hv : (⟨(i 0).val / 4096, ht⟩ : Fin cfg0.N).val = (i 0).val / 4096 := rfl
  refine ⟨⟨(i 0).val / 4096, ht⟩, flush0_11 _, ?_⟩
  rw [mem_blk]
  intro a
  match a with
  | ⟨0, _⟩ =>
    show win0_11.index ⟨(i 0).val / 4096, ht⟩ (0 : Fin 2) * 4096 ≤ (i 0).val
      ∧ (i 0).val < win0_11.index ⟨(i 0).val / 4096, ht⟩ (0 : Fin 2) * 4096 + win0_11.xsize (grid0.coords ⟨(i 0).val / 4096, ht⟩) (0 : Fin 2)
    omega
  | ⟨1, _⟩ =>
    show win0_11.index ⟨(i 0).val / 4096, ht⟩ (1 : Fin 2) * 128 ≤ (i 1).val
      ∧ (i 1).val < win0_11.index ⟨(i 0).val / 4096, ht⟩ (1 : Fin 2) * 128 + win0_11.xsize (grid0.coords ⟨(i 0).val / 4096, ht⟩) (1 : Fin 2)
    omega

/-- The result array after the last write-back is the result. -/
theorem final (c : Dev nD) : (dats m (tile m) 0 c).arrAt 11 cfg0.N = resultOn m c :=
  (dats m (tile m) 0 c).arrAt_eq_of_cover 11 (resultOn m c) (fun t _ => flushed_eq m c t) cover

/-! ## The run, read -/

/-- Every weakly fair execution of the idealized kernel terminates, faults nowhere, leaves the result array at the
    result and the ten arguments as they were. -/
theorem run_value : θ_run defs (onTc (τ := τ) (main (F := Ideal))) ⟨m, fun _ => 0, ρ⟩ (fun r => ∀ c : Dev nD,
      r.2.mem ((c.tc : Thread nD τ).loc main_v18) = resultOn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).1 11).trans (final m c),
      ((h c).1 0).trans (((dats m (tile m) 0 c).arrAt_in 0 rfl _).trans ((A_eq m (tile m) c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 6).trans (((dats m (tile m) 0 c).arrAt_in 6 rfl _).trans ((A_eq m (tile m) c 6).trans (V_main_arg5 m c))),
      ((h c).1 7).trans (((dats m (tile m) 0 c).arrAt_in 7 rfl _).trans ((A_eq m (tile m) c 7).trans (V_main_arg6 m c))),
      ((h c).1 8).trans (((dats m (tile m) 0 c).arrAt_in 8 rfl _).trans ((A_eq m (tile m) c 8).trans (V_main_arg7 m c))),
      ((h c).1 9).trans (((dats m (tile m) 0 c).arrAt_in 9 rfl _).trans ((A_eq m (tile m) c 9).trans (V_main_arg8 m c))),
      ((h c).1 10).trans (((dats m (tile m) 0 c).arrAt_in 10 rfl _).trans ((A_eq m (tile m) c 10).trans (V_main_arg9 m c)))⟩)
    (run_named m ρ (tile m) (tile_cut m))

/-! ## The arrays the host operations compute before the region -/

/-- The gathered source-node rows are the node table read at the wrapped source indices: the same term the reference
    computes (the table's format change is the identity here). -/
theorem V_src (c : Dev nD) : (V m c main_v7 : S500000x128.Idx → EReal)
    = Cert.ReferenceIdeal.Read.val_main_v6 (F := Ideal) (m ((c.tc : Thread nD τ).loc main_arg1)) (m ((c.tc : Thread nD τ).loc main_arg2)) := by
  dsimp only [V, hostOps0]
  after_results
  rfl

/-- The gathered target-node rows likewise. -/
theorem V_dst (c : Dev nD) : (V m c main_v14 : S500000x128.Idx → EReal)
    = Cert.ReferenceIdeal.Read.val_main_v13 (F := Ideal) (m ((c.tc : Thread nD τ).loc main_arg1)) (m ((c.tc : Thread nD τ).loc main_arg3)) := by
  dsimp only [V, hostOps0]
  after_results
  rfl

/-- The slice of the weight matrix from row 0 is its band there. -/
theorem V_band0 (c : Dev nD) : (V m c main_v15 : S128x128.Idx → EReal) = band (m ((c.tc : Thread nD τ).loc main_arg4)) 0 (by norm_num) := by
  have e : (V m c main_v15 : S128x128.Idx → EReal)
      = extractStridedSlice S128x128 ![0, 0] (m ((c.tc : Thread nD τ).loc main_arg4)) slices_S384x128_S128x128_0_0 := by
    dsimp only [V, hostOps0]
    after_results
  rw [e]
  funext i
  obtain ⟨j, k, rfl⟩ : ∃ (j : Fin 128) (k : Fin 128), i = ix2 j k := ⟨i 0, i 1, eq_ix2 i⟩
  exact slice2_axis0_apply 0 _ _ j k ⟨0 + j.val, by have := j.isLt; omega⟩ rfl

/-- The slice of the weight matrix from row 128 is its band there. -/
theorem V_band128 (c : Dev nD) : (V m c main_v16 : S128x128.Idx → EReal) = band (m ((c.tc : Thread nD τ).loc main_arg4)) 128 (by norm_num) := by
  have e : (V m c main_v16 : S128x128.Idx → EReal)
      = extractStridedSlice S128x128 ![128, 0] (m ((c.tc : Thread nD τ).loc main_arg4)) slices_S384x128_S128x128_128_0 := by
    dsimp only [V, hostOps0]
    after_results
  rw [e]
  funext i
  obtain ⟨j, k, rfl⟩ : ∃ (j : Fin 128) (k : Fin 128), i = ix2 j k := ⟨i 0, i 1, eq_ix2 i⟩
  exact slice2_axis0_apply 128 _ _ j k ⟨128 + j.val, by have := j.isLt; omega⟩ rfl

/-- The slice of the weight matrix from row 256 is its band there. -/
theorem V_band256 (c : Dev nD) : (V m c main_v17 : S128x128.Idx → EReal) = band (m ((c.tc : Thread nD τ).loc main_arg4)) 256 (by norm_num) := by
  have e : (V m c main_v17 : S128x128.Idx → EReal)
      = extractStridedSlice S128x128 ![256, 0] (m ((c.tc : Thread nD τ).loc main_arg4)) slices_S384x128_S128x128_256_0 := by
    dsimp only [V, hostOps0]
    after_results
  rw [e]
  funext i
  obtain ⟨j, k, rfl⟩ : ∃ (j : Fin 128) (k : Fin 128), i = ix2 j k := ⟨i 0, i 1, eq_ix2 i⟩
  exact slice2_axis0_apply 256 _ _ j k ⟨256 + j.val, by have := j.isLt; omega⟩ rfl

/-- The result is `G` of the argument arrays, the gathers and the bands spelt as the reference spells them. -/
theorem resultOn_eq (c : Dev nD) : resultOn m c
    = G (n := 500000) (m ((c.tc : Thread nD τ).loc main_arg0))
        (Cert.ReferenceIdeal.Read.val_main_v6 (F := Ideal) (m ((c.tc : Thread nD τ).loc main_arg1)) (m ((c.tc : Thread nD τ).loc main_arg2)))
        (Cert.ReferenceIdeal.Read.val_main_v13 (F := Ideal) (m ((c.tc : Thread nD τ).loc main_arg1)) (m ((c.tc : Thread nD τ).loc main_arg3)))
        (band (m ((c.tc : Thread nD τ).loc main_arg4)) 0 (by norm_num)) (band (m ((c.tc : Thread nD τ).loc main_arg4)) 128 (by norm_num)) (band (m ((c.tc : Thread nD τ).loc main_arg4)) 256 (by norm_num))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold resultOn
  rw [V_main_arg0, V_main_arg5, V_main_arg6, V_main_arg7, V_main_arg8, V_main_arg9, V_src, V_dst, V_band0, V_band128, V_band256]

end Cert.KernelIdeal.Hand

end
-- ==== Proof.lean ====
/-
  A graph-network edge update, tiled, against its plain statement.

  For each of 500000 edges the reference concatenates the edge's feature row with the feature rows of its source and
  target nodes (read from a 50000-row node table at integer indices, a negative index first moved up by the table's
  length), applies a linear layer (384 → 128), SiLU, a second linear layer (128 → 128) and LayerNorm over the 128
  outputs, and adds the edge's own row back. The kernel gathers the node rows on the host, cuts the first weight matrix
  into its three 128-row bands, and computes the same thing 4096 edges at a time over a grid of 123 tiles, the last
  tile overhanging the array by 3808 rows.

  On the extended reals the two are one function (`Cert.EdgeUpdate.G`, Proof/Spec.lean):
  * the 384-term sum over the concatenated row against the weight matrix is the sum of three 128-term sums against its
    bands — only that + is associative and commutative there, so no input need be finite;
  * the reference's `x · (1 / (1 + exp (−x)))` is `x · logistic x` by the definition of the logistic function;
  * the mean's divisor 128 and LayerNorm's ε are the same float words on both sides, rsqrt and division the same
    functions, a change of float format the identity;
  * every row of a tile depends on the same row of the per-edge inputs only, so what the last tile's buffers hold past
    the array's end never reaches a row that is written back.

  The modules: Spec (the function), RefValue (the reference computes it), KernelPay (the kernel's stored tile is it,
  row by row), Body* / Data* / Obl* / Run* (the kernel body's triple, the pipeline's proof data and obligations, the
  runs — once for the word-level kernel, whose frame alone is claimed, once for the idealized one), TileIdeal and
  FinalIdeal (the result array after the run). The reference's frame is its run with the result dropped; the
  idealized kernel is the kernel's own text read on the extended reals, so nothing is owed for that step.
-/
import proofs.«139852_j84104049590405_2_alg».proof.Defs
import proofs.«139852_j84104049590405_2_alg».proof.Proof.Gen.Kernel
import proofs.«139852_j84104049590405_2_alg».proof.Proof.Gen.Kernel.Skeleton
import proofs.«139852_j84104049590405_2_alg».proof.Proof.Gen.Kernel.Launch
import proofs.«139852_j84104049590405_2_alg».proof.Proof.Gen.Kernel.Points
import proofs.«139852_j84104049590405_2_alg».proof.Proof.Gen.Kernel.Frame
import proofs.«139852_j84104049590405_2_alg».proof.Proof.Gen.KernelIdeal
import proofs.«139852_j84104049590405_2_alg».proof.Proof.Gen.KernelIdeal.Skeleton
import proofs.«139852_j84104049590405_2_alg».proof.Proof.Gen.KernelIdeal.Launch
import proofs.«139852_j84104049590405_2_alg».proof.Proof.Gen.KernelIdeal.Points
import proofs.«139852_j84104049590405_2_alg».proof.Proof.Gen.KernelIdeal.Frame
import proofs.«139852_j84104049590405_2_alg».proof.Proof.Gen.ReferenceIdeal
import proofs.«139852_j84104049590405_2_alg».proof.Proof.Gen.Pre_finite_inputs
import proofs.«139852_j84104049590405_2_alg».proof.Proof.Gen.ReferenceIdeal.Run
import proofs.«139852_j84104049590405_2_alg».proof.Proof.Gen.ReferenceIdeal.Read
import proofs.«139852_j84104049590405_2_alg».proof.Proof.RunBits
import proofs.«139852_j84104049590405_2_alg».proof.Proof.FinalIdeal
import proofs.«139852_j84104049590405_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Hand.frame_fgt (F := Bits) m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame_fgt (F := Ideal) m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories agreeing on the arguments both idealized programs end with the result array at `G` of the arguments
    — the kernel's by its tiles covering the array, the reference's by its run read back — and the node table, the
    second result, as it was. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.resultOn m c,
    fun c => m ((c.tc : Thread Cert.KernelIdeal.nD Cert.KernelIdeal.τ).loc Cert.KernelIdeal.main_arg1), ?_, ?_⟩
  · exact (θ_run Cert.KernelIdeal.defs _ _).mono (fun r h c => ⟨(h c).1, (h c).2.2.1, (h c).2⟩)
      (Cert.KernelIdeal.Hand.run_value m ρ)
  · refine (θ_run Cert.ReferenceIdeal.defs _ _).mono (fun r h c => ⟨?_, ?_, (h c).2.2⟩)
      (Cert.ReferenceIdeal.Value.run (F := Ideal) m' ρ')
    · refine ((h c).1.trans (Cert.EdgeUpdate.Ref.res_eq_G m' c)).trans ?_
      obtain ⟨e0, e1, e2, e3, e4, e5, e6, e7, e8, e9⟩ := hagree c
      rw [e0, e1, e2, e3, e4, e5, e6, e7, e8, e9]
      exact (Cert.KernelIdeal.Hand.resultOn_eq m c).symm
    · exact (h c).2.1.trans (hagree c).2.1

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
